-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S4096x4096 : Shape := ⟨2, ![4096, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S1024x1024 .f32) (main_arg1 : FVec F S4096x4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S1024x1024 : Shape := ⟨2, ![1024, 1024]⟩
abbrev S4096x4096 : Shape := ⟨2, ![4096, 4096]⟩
abbrev S1024x128 : Shape := ⟨2, ![1024, 128]⟩
abbrev S512x4096 : Shape := ⟨2, ![512, 4096]⟩
abbrev S1024x4096 : Shape := ⟨2, ![1024, 4096]⟩
abbrev S512x1024 : Shape := ⟨2, ![512, 1024]⟩
abbrev S1024x512 : Shape := ⟨2, ![1024, 512]⟩
abbrev S256x4096 : Shape := ⟨2, ![256, 4096]⟩
abbrev S128x4096 : Shape := ⟨2, ![128, 4096]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S4096x4096, .f32⟩
  | .hbm, ⟨2, _⟩ => ⟨S1024x1024, .bf16⟩
  | .hbm, ⟨3, _⟩ => ⟨S1024x128, .f32⟩
  | .local _ .vmem, ⟨0, _⟩ => ⟨S1024x1024, .bf16⟩
  | .local _ .vmem, ⟨1, _⟩ => ⟨S512x4096, .f32⟩
  | .local _ .vmem, ⟨2, _⟩ => ⟨S512x4096, .f32⟩
  | .local _ .vmem, ⟨3, _⟩ => ⟨S1024x128, .f32⟩
  | .local _ .vmem, ⟨4, _⟩ => ⟨S4096x4096, .bf16⟩
  | .local _ .vmem, ⟨5, _⟩ => ⟨S1024x4096, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v13 : BitVec 32 := Scalar.muli arg0 c512_i32
  let v14 : Index := Scalar.indexCast v13
  let c0_5 : Index := 0#32
  ![v14.toNat, 0]
def k0_off2 (i : grid0.Coords) : Fin 2 → Nat :=
  let c0_9 : Index := 0#32
  let arg0 : BitVec 32 := BitVec.ofNat 32 (i 0).val
  let c512_i32_8 : BitVec 32 := 512#32
  let v24 : BitVec 32 := Scalar.muli arg0 c512_i32_8
  let v25 : Index := Scalar.indexCast v24
  ![0, v25.toNat]
def k0_cond2 (i : grid0.Coords) : BitVec 1 :=
  let arg0 : BitVec 32 := BitVec.ofNat 32 (i 0).val
  let c8_i32_0 : BitVec 32 := 8#32
  let v3 : BitVec 1 := Scalar.cmpi .sge arg0 c8_i32_0
  let c32_i32 : BitVec 32 := 32#32
  let v4 : BitVec 1 := Scalar.cmpi .slt arg0 c32_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 2 → Nat :=
  let arg0 : BitVec 32 := BitVec.ofNat 32 (i 0).val
  let c8_i32_4 : BitVec 32 := 8#32
  let v11 : BitVec 32 := Scalar.subi arg0 c8_i32_4
  let c4_i32 : BitVec 32 := 4#32
  let v12 : BitVec 32 := Scalar.remsi v11 c4_i32
  let c256_i32 : BitVec 32 := 256#32
  let v13 : BitVec 32 := Scalar.muli v12 c256_i32
  let v14 : Index := Scalar.indexCast v13
  let c0 : Index := 0#32
  ![v14.toNat, 0]
def k0_cond3 (i : grid0.Coords) : BitVec 1 :=
  let arg0 : BitVec 32 := BitVec.ofNat 32 (i 0).val
  let c32_i32_2 : BitVec 32 := 32#32
  let v8 : BitVec 1 := Scalar.cmpi .eq arg0 c32_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S512x4096_o0_0_S512x1024 : S512x4096.Slices ![0, 0] S512x1024
  h_S1024x512 : 0 < S1024x512.numel
  shapeCasts_S1024x512_S1024x512 : S1024x512.ShapeCasts S1024x512
  h_S256x4096 : 0 < S256x4096.numel
  inb_S4096x4096_S4096x4096_0_0 : ∀ a, (![0, 0] : Fin 2 → Nat) a + S4096x4096.size a ≤ S4096x4096.size a
  h_S4096x4096 : 0 < S4096x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  inb_S4096x4096_S128x4096_3968_0 : ∀ a, (![3968, 0] : Fin 2 → Nat) a + S128x4096.size a ≤ S4096x4096.size a
  h_S128x4096 : 0 < S128x4096.numel
  inb_S1024x128_S1024x128_0_0 : ∀ a, (![0, 0] : Fin 2 → Nat) a + S1024x128.size a ≤ S1024x128.size a
  h_S1024x128 : 0 < S1024x128.numel
  dot_S1024x1024_S512x1024_S1024x512_1_1_0_0_n_n_wf : DotDims.WF S1024x1024 S512x1024 S1024x512 [1] [1] [0] [0] [] []
  dot_S256x4096_S4096x4096_S256x4096_1_1_0_0_n_n_wf : DotDims.WF S256x4096 S4096x4096 S256x4096 [1] [1] [0] [0] [] []
  dot_S1024x4096_S128x4096_S1024x128_1_1_0_0_n_n_wf : DotDims.WF S1024x4096 S128x4096 S1024x128 [1] [1] [0] [0] [] []
  hrank0 : 0 < grid0.rank
  k0_off1_inb : ∀ i : grid0.Coords, ∀ (k0_h1 : k0_cond1 i = 1#1), ∀ a, (k0_off1 i) a + S512x4096.size a ≤ S4096x4096.size a
  k0_off1_packedbf16 : ∀ i : grid0.Coords, ∀ (k0_h1 : k0_cond1 i = 1#1), (Rect.unit (s := S4096x4096) (k0_off1 i) S512x4096.size (k0_off1_inb i k0_h1)).PackedRows (EltTy.packing .bf16)
  k0_off2_inb : ∀ i : grid0.Coords, ∀ (k0_h1 : k0_cond1 i = 1#1), ∀ a, (k0_off2 i) a + S1024x512.size a ≤ S1024x4096.size a
  k0_off2_packedbf16 : ∀ i : grid0.Coords, ∀ (k0_h1 : k0_cond1 i = 1#1), (Rect.unit (s := S1024x4096) (k0_off2 i) S1024x512.size (k0_off2_inb i k0_h1)).PackedRows (EltTy.packing .bf16)
  k0_off3_inb : ∀ i : grid0.Coords, ∀ (k0_h2 : k0_cond2 i = 1#1), ∀ a, (k0_off3 i) a + S256x4096.size a ≤ S1024x4096.size a
  k0_off3_packedbf16 : ∀ i : grid0.Coords, ∀ (k0_h2 : k0_cond2 i = 1#1), (Rect.unit (s := S1024x4096) (k0_off3 i) S256x4096.size (k0_off3_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .bf16 = 32 ∨ (Rect.block (s := S1024x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S1024x128.size a
  hwx0_2 : ∀ i : grid0.Coords, EltTy.bits .f32 = 32 ∨ (Rect.block (s := S1024x128) S1024x128.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf
def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_v0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S1024x1024 : Shape := ⟨2, ![1024, 1024]⟩
abbrev S4096x4096 : Shape := ⟨2, ![4096, 4096]⟩
abbrev S_ : Shape := ⟨0, ![]⟩
abbrev S1024x4096 : Shape := ⟨2, ![1024, 4096]⟩
abbrev S1 : Shape := ⟨1, ![1]⟩
abbrev S1024x128 : Shape := ⟨2, ![1024, 128]⟩

abbrev nBuf : Space → Nat
  | .hbm => 88
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S_, .i32⟩
  | .hbm, ⟨5, _⟩ => ⟨S1, .i32⟩
  | .hbm, ⟨6, _⟩ => ⟨S1024x4096, .f32⟩
  | .hbm, ⟨7, _⟩ => ⟨S4096x4096, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S4096x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S_, .f32⟩
  | .hbm, ⟨22, _⟩ => ⟨S1024x4096, .f32⟩
  | .hbm, ⟨23, _⟩ => ⟨S1024x4096, .f32⟩
  | .hbm, ⟨24, _⟩ => ⟨S_, .f32⟩
  | .hbm, ⟨25, _⟩ => ⟨S1024x4096, .f32⟩
  | .hbm, ⟨26, _⟩ => ⟨S1024x4096, .f32⟩
  | .hbm, ⟨27, _⟩ => ⟨S4096x4096, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S_, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S4096x4096, .f32⟩
  | .hbm, ⟨38, _⟩ => ⟨S1024x4096, .f32⟩
  | .hbm, ⟨39, _⟩ => ⟨S1024x4096, .f32⟩
  | .hbm, ⟨40, _⟩ => ⟨S1024x4096, .f32⟩
  | .hbm, ⟨41, _⟩ => ⟨S_, .f32⟩
  | .hbm, ⟨42, _⟩ => ⟨S1024x4096, .f32⟩
  | .hbm, ⟨43, _⟩ => ⟨S1024x4096, .f32⟩
  | .hbm, ⟨44, _⟩ => ⟨S_, .f32⟩
  | .hbm, ⟨45, _⟩ => ⟨S1024x4096, .f32⟩
  | .hbm, ⟨46, _⟩ => ⟨S1024x4096, .f32⟩
  | .hbm, ⟨47, _⟩ => ⟨S4096x4096, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S_, .f32⟩
  | .hbm, ⟨52, _⟩ => ⟨S1024x4096, .f32⟩
  | .hbm, ⟨53, _⟩ => ⟨S1024x4096, .f32⟩
  | .hbm, ⟨54, _⟩ => ⟨S_, .f32⟩
  | .hbm, ⟨55, _⟩ => ⟨S1024x4096, .f32⟩
  | .hbm, ⟨56, _⟩ => ⟨S1024x4096, .f32⟩
  | .hbm, ⟨57, _⟩ => ⟨S4096x4096, .f32⟩
  | .hbm, ⟨58, _⟩ => ⟨S1024x4096, .f32⟩
  | .hbm, ⟨59, _⟩ => ⟨S1024x4096, .f32⟩
  | .hbm, ⟨60, _⟩ => ⟨S1024x4096, .f32⟩
  | .hbm, ⟨61, _⟩ => ⟨S_, .f32⟩
  | .hbm, ⟨62, _⟩ => ⟨S1024x4096, .f32⟩
  | .hbm, ⟨63, _⟩ => ⟨S1024x4096, .f32⟩
  | .hbm, ⟨64, _⟩ => ⟨S_, .f32⟩
  | .hbm, ⟨65, _⟩ => ⟨S1024x4096, .f32⟩
  | .hbm, ⟨66, _⟩ => ⟨S1024x4096, .f32⟩
  | .hbm, ⟨67, _⟩ => ⟨S4096x4096, .f32⟩
  | .hbm, ⟨68, _⟩ => ⟨S1024x4096, .f32⟩
  | .hbm, ⟨69, _⟩ => ⟨S1024x4096, .f32⟩
  | .hbm, ⟨70, _⟩ => ⟨S1024x4096, .f32⟩
  | .hbm, ⟨71, _⟩ => ⟨S_, .f32⟩
  | .hbm, ⟨72, _⟩ => ⟨S1024x4096, .f32⟩
  | .hbm, ⟨73, _⟩ => ⟨S1024x4096, .f32⟩
  | .hbm, ⟨74, _⟩ => ⟨S_, .f32⟩
  | .hbm, ⟨75, _⟩ => ⟨S1024x4096, .f32⟩
  | .hbm, ⟨76, _⟩ => ⟨S1024x4096, .f32⟩
  | .hbm, ⟨77, _⟩ => ⟨S4096x4096, .f32⟩
  | .hbm, ⟨78, _⟩ => ⟨S1024x4096, .f32⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S_, .f32⟩
  | .hbm, ⟨83, _⟩ => ⟨S1024x128, .f32⟩
  | .hbm, ⟨84, _⟩ => ⟨S1024x128, .f32⟩
  | .hbm, ⟨85, _⟩ => ⟨S_, .f32⟩
  | .hbm, ⟨86, _⟩ => ⟨S1024x128, .f32⟩
  | .hbm, ⟨87, _⟩ => ⟨S1024x128, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_cst_7 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_cst_11 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_12 : Ref sig .tc := ⟨.hbm, 71, rfl⟩
abbrev main_v55 : Ref sig .tc := ⟨.hbm, 72, rfl⟩
abbrev main_v56 : Ref sig .tc := ⟨.hbm, 73, rfl⟩
abbrev main_cst_13 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]

class Facts₀ : Prop where
  bcast_S_S1024x4096 : S_.BroadcastsInDim S1024x4096 (![] : Fin 0 → Fin S1024x4096.rank)
  bcast_S_S1 : S_.BroadcastsInDim S1 (![] : Fin 0 → Fin S1.rank)
  transposes_S4096x4096_S4096x4096_1_0 : S4096x4096.Transposes [1, 0] S4096x4096
  slices_S1024x4096_S1024x128_0_3968 : S1024x4096.Slices ![0, 3968] S1024x128
  bcast_S_S1024x128 : S_.BroadcastsInDim S1024x128 (![] : Fin 0 → Fin S1024x128.rank)
  scatter_S1024x4096_S1_S1024x1024_01_n_1_0_wf : ScatterDims.WF S1024x4096 S1 S1024x1024 [0, 1] [] [1] 0
  dot_S1024x4096_S4096x4096_S1024x4096_1_0_0_1_n_n_wf : DotDims.WF S1024x4096 S4096x4096 S1024x4096 [1] [0] [0] [1] [] []

variable [Facts₀]

def scatter_S1024x4096_S1_S1024x1024_01_n_1_0 : ScatterDims S1024x4096 S1 S1024x1024 where
  updateWindowDims := [0, 1]
  insertedWindowDims := []
  scatterDimsToOperandDims := [1]
  indexVectorDim := 0
  wf := scatter_S1024x4096_S1_S1024x1024_01_n_1_0_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Word.Schedule.lean ====
/-
  The grid's 33 points in closed form. Point t < 8 takes the first branch (row block t of the weight matrix is
  converted and kept, and column block t of the first hidden state is computed); points 8 ≤ t < 32 take the second
  (rows 256·((t − 8) mod 4) … of the hidden state are replaced by the next step's); point 32 takes the third (the
  last 128 output units). The offsets the branches compute are those multiples, and the result's block is written
  back after the last point only.
-/
import proofs.«134139_g10737418240768_week1_w2_1022_16_alg».proof.Proof.Gen.Kernel.Frame
import proofs.«134139_g10737418240768_week1_w2_1022_16_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the points below 8. -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- The second branch is taken at the points 8 … 31. -/
theorem hcond2 : ∀ t : Fin cfg0.N, k0_cond2 (grid0.coords t) = 1#1 ↔ (8 ≤ t.val ∧ t.val < 32) :=
  (by decide +kernel : ∀ t : Fin grid0.N, k0_cond2 (grid0.coords t) = 1#1 ↔ (8 ≤ t.val ∧ t.val < 32))
/-- The third branch is taken at the last point. -/
theorem hcond3 : ∀ t : Fin cfg0.N, k0_cond3 (grid0.coords t) = 1#1 ↔ t.val = 32 :=
  (by decide +kernel : ∀ t : Fin grid0.N, k0_cond3 (grid0.coords t) = 1#1 ↔ t.val = 32)

/-- The weight rows kept at point t start at row 512·t. -/
theorem hoff1 : ∀ t : Fin cfg0.N, k0_off1 (grid0.coords t) = ![t.val * 512, 0] :=
  (by decide +kernel : ∀ t : Fin grid0.N, k0_off1 (grid0.coords t) = ![t.val * 512, 0])
/-- The hidden columns computed at point t start at column 512·t. -/
theorem hoff2 : ∀ t : Fin cfg0.N, k0_off2 (grid0.coords t) = ![0, t.val * 512] :=
  (by decide +kernel : ∀ t : Fin grid0.N, k0_off2 (grid0.coords t) = ![0, t.val * 512])
/-- The hidden rows replaced at a point t ≥ 8 start at row 256·((t − 8) mod 4). -/
theorem hoff3 : ∀ t : Fin cfg0.N, 8 ≤ t.val → k0_off3 (grid0.coords t) = ![(t.val - 8) % 4 * 256, 0] :=
  (by decide +kernel : ∀ t : Fin grid0.N, 8 ≤ t.val → k0_off3 (grid0.coords t) = ![(t.val - 8) % 4 * 256, 0])

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The result's window is idle before the last point, and not written back there; -/
theorem idleAt0_2 : ∀ t : Fin cfg0.N, t.val ≠ 32 → cfg0.idle 2 (grid0.coords t) = true := by decide +kernel
theorem noFlush0_2 : ∀ t : Fin cfg0.N, t.val ≠ 32 → (cfg0.win 2).flush t = false := by decide +kernel
/-- at the last point it is stored. -/
theorem liveAt0_2 : ∀ t : Fin cfg0.N, t.val = 32 → cfg0.idle 2 (grid0.coords t) = false := by decide +kernel

/-- Each window's current staging memref at point t, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The two buffers the kernel keeps between points: the converted weight matrix and the hidden state. -/
abbrev scW : Memref sig .tc .vmem S4096x4096 .bf16 := Memref.whole cc0_scratch0
abbrev scH : Memref sig .tc .vmem S1024x4096 .bf16 := Memref.whole cc0_scratch1

/-- What the region is handed besides its windows: the two kept buffers at some contents, and the generator register. -/
theorem PhiA0_eq (c : Dev nD) :
    (Pipeline.ΦA spec0 c : sProp 𝕄)
      = iprop(iprop((∃ d, owns (c : Thread nD τ) scW fullShare d) ∗ (∃ d, owns (c : Thread nD τ) scH fullShare d)) ∗ (∃ r, prngReg c r)) := by
  unfold Pipeline.ΦA; rw [scopedRest0_eq]; simp only [scW, scH, owns_whole]; try rfl

end Cert.Kernel.Gen

end
-- ==== Proof.Word.Steps.lean ====
/-
  The kernel body run once in each of its three branches, on whole buffers at any contents. Branch one keeps the
  converted weight rows and one column block of the first hidden state; branch two replaces one block of rows of the
  hidden state by the logistic of its product with the kept weights; branch three stores the result. Each run hands
  back every buffer it only read unchanged, and each buffer it stored into at its old contents with the one stored
  piece written over them.
-/
import proofs.«134139_g10737418240768_week1_w2_1022_16_alg».proof.Proof.Word.Schedule
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads its contents. -/
theorem readAt_whole {s : Shape} {e : EltTy} {M : Memref sig .tc .vmem s e} (hM : M.IsWhole) (c : Dev nD) (X : s.Idx → Elt F e)
    {off : Fin s.rank → ℕ} (h0 : off = fun _ => 0) (inb : ∀ a, off a + s.size a ≤ s.size a) :
    View.readAt (Elt F) M.view (Rect.unit off s.size inb).toLoadRect (hM.unread X) = X := by
  rw [View.readAt_eq_ld, hM.read_unread]; exact View.ld_unit_zero h0 inb X

/-- A load through a rectangle reads the contents at the rectangle's indices. -/
theorem readAt_rect_unread {s : Shape} {e : EltTy} {M : Memref sig .tc .vmem s e} (hM : M.IsWhole) (X : s.Idx → Elt F e) (r : Rect s) :
    View.readAt (Elt F) M.view r.toLoadRect (hM.unread X) = View.ld X r := by
  rw [View.readAt_eq_ld, hM.read_unread]

set_option maxHeartbeats 1000000 in
/-- Branch one (points below 8). -/
theorem run_first (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : k0_cond1 i = 1#1) (h2 : ¬ k0_cond2 i = 1#1) (h3 : ¬ k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2 ∗ owns (c : Thread nD τ) arg3 fullShare x3
            ∗ owns (c : Thread nD τ) arg4 fullShare (arg4.view.read (Elt F) (arg4.view.writes (Elt F) (harg4.unread x4)
                [⟨Rect.unit (k0_off1 i) S512x4096.size (k0_off1_inb i h1), k0_pay2 x2⟩]))
            ∗ owns (c : Thread nD τ) arg5 fullShare (arg5.view.read (Elt F) (arg5.view.writes (Elt F) (harg5.unread x5)
                [⟨Rect.unit (k0_off2 i) S1024x512.size (k0_off2_inb i h1), k0_pay3 x2 x1⟩]))) -∗ K ⟨⟩))
      ⊢ wp frame (wpE (defs₀ (F := F)) Variants.none c none) E (cc0__body i arg1 harg1 arg2 harg2 arg3 harg3 arg4 harg4 arg5 harg5) K := by
  have e2 := readAt_whole (F := F) harg2 c x2 (off := ![0, 0]) (funext fun a => by fin_cases a <;> rfl) inb_S512x4096_S512x4096_0_0
  have e1 := readAt_whole (F := F) harg1 c x1 (off := ![0, 0]) (funext fun a => by fin_cases a <;> rfl) inb_S1024x1024_S1024x1024_0_0
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro; first | rfl | (rw [e2]; rfl)
  iexists _; isplitr
  swap; · iexact H5
  ipureintro; first | rfl | (rw [e2, e1]; rfl)

set_option maxHeartbeats 1000000 in
/-- Branch two (points 8 … 31). -/
theorem run_mid (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : ¬ k0_cond1 i = 1#1) (h2 : k0_cond2 i = 1#1) (h3 : ¬ k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (arg5.view.read (Elt F) (arg5.view.writes (Elt F) (harg5.unread x5)
                [⟨Rect.unit (k0_off3 i) S256x4096.size (k0_off3_inb i h2),
                  k0_pay4 (View.ld x5 (Rect.unit (k0_off3 i) S256x4096.size (k0_off3_inb i h2))) x4⟩]))) -∗ K ⟨⟩))
      ⊢ wp frame (wpE (defs₀ (F := F)) Variants.none c none) E (cc0__body i arg1 harg1 arg2 harg2 arg3 harg3 arg4 harg4 arg5 harg5) K := by
  have e4 := readAt_whole (F := F) harg4 c x4 (off := ![0, 0]) (funext fun a => by fin_cases a <;> rfl) inb_S4096x4096_S4096x4096_0_0
  have e5 := readAt_rect_unread (F := F) harg5 x5 (Rect.unit (k0_off3 i) S256x4096.size (k0_off3_inb i h2))
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro; first | rfl | (rw [e4, e5]; rfl)

set_option maxHeartbeats 1000000 in
/-- Branch three (the last point). -/
theorem run_last (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : ¬ k0_cond1 i = 1#1) (h2 : ¬ k0_cond2 i = 1#1) (h3 : k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2
            ∗ owns (c : Thread nD τ) arg3 fullShare (arg3.view.read (Elt F) (arg3.view.writes (Elt F) (harg3.unread x3)
                [⟨Rect.unit ![0, 0] S1024x128.size inb_S1024x128_S1024x128_0_0,
                  k0_pay5 x5 (View.ld x4 (Rect.unit ![3968, 0] S128x4096.size inb_S4096x4096_S128x4096_3968_0))⟩]))
            ∗ owns (c : Thread nD τ) arg4 fullShare x4 ∗ owns (c : Thread nD τ) arg5 fullShare x5) -∗ K ⟨⟩))
      ⊢ wp frame (wpE (defs₀ (F := F)) Variants.none c none) E (cc0__body i arg1 harg1 arg2 harg2 arg3 harg3 arg4 harg4 arg5 harg5) K := by
  have e5 := readAt_whole (F := F) harg5 c x5 (off := ![0, 0]) (funext fun a => by fin_cases a <;> rfl) inb_S1024x4096_S1024x4096_0_0
  have e4 := readAt_rect_unread (F := F) harg4 x4 (Rect.unit ![3968, 0] S128x4096.size inb_S4096x4096_S128x4096_3968_0)
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro; first | rfl | (rw [e5, e4]; rfl)
  isplitl [H4]
  · iexists _; isplitr; · ipureintro; exact harg4.read_unread _
    iexact H4
  iexists _; isplitr; · ipureintro; exact harg5.read_unread _
  iexact H5

end Cert.Kernel.Gen

end
-- ==== Proof.Word.Carried.lean ====
/-
  What the two kept buffers hold before each grid point, named through the body's own payload functions, for any
  float instance. The weight buffer's row block j (512 rows) is the conversion of the weight window's block at
  point j. The hidden state after step one has column block j (512 columns) computed at point j from that block
  and the input; each later step replaces the state, 256 rows at a time, by the logistic of its product with the kept
  weights, and a block of rows depends only on the same rows of the state before. Before point n ≤ 8 the first n row
  blocks of the weights and the first n column blocks of the hidden state are in place (the rest is whatever the
  buffers held); before point n = 8 + 4s + r the weights are complete, rows below 256·r hold step s + 2 and the
  others step s + 1; at point 32 the result is computed from step 7 and the last 128 weight rows.
-/
import proofs.«134139_g10737418240768_week1_w2_1022_16_alg».proof.Proof.Word.Schedule
import Idealize.ShloMosaic.Lib.ValueIdx

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ)

/-- Grid point number n (taken modulo the 33 points, so that it is total). -/
def pt (n : ℕ) : Fin cfg0.N := ⟨n % 33, lt_of_lt_of_eq (Nat.mod_lt _ (by norm_num)) (show (33 : ℕ) = cfg0.N from N_0.symm)⟩

theorem pt_val (t : Fin cfg0.N) : pt t.val = t :=
  Fin.ext (Nat.mod_eq_of_lt (lt_of_lt_of_eq t.isLt (show cfg0.N = 33 from N_0)))

/-- The weight window's block and the input window's block at a point, as plain arrays. -/
def wblk (c : Dev nD) (t : Fin cfg0.N) : Vec F S512x4096 .f32 := iblk m c 1 t
def xblk (c : Dev nD) (t : Fin cfg0.N) : Vec F S1024x1024 .bf16 := iblk m c 0 t

/-- The kept weights: row r is row r mod 512 of the conversion of block r / 512. -/
def Wkept (c : Dev nD) : Vec F S4096x4096 .bf16 := fun y =>
  k0_pay2 (wblk m c (pt ((y 0).val / 512)))
    (ix2 (⟨(y 0).val % 512, Nat.mod_lt _ (by norm_num)⟩ : Fin 512) (⟨(y 1).val, idx2_lt1 y⟩ : Fin 4096))

/-- The hidden state after step one: column q is column q mod 512 of what point q / 512 computes. -/
def Hfirst (c : Dev nD) : Vec F S1024x4096 .bf16 := fun y =>
  k0_pay3 (wblk m c (pt ((y 1).val / 512))) (xblk m c (pt ((y 1).val / 512)))
    (ix2 (⟨(y 0).val, idx2_lt0 y⟩ : Fin 1024) (⟨(y 1).val % 512, Nat.mod_lt _ (by norm_num)⟩ : Fin 512))

/-- Rows o … o + 255 of a hidden state (row numbers taken modulo 1024, so that it is total). -/
def rowsAt (H : Vec F S1024x4096 .bf16) (o : ℕ) : Vec F S256x4096 .bf16 := fun x =>
  H (ix2 (⟨(o + (x 0).val) % 1024, Nat.mod_lt _ (by norm_num)⟩ : Fin 1024) (⟨(x 1).val, idx2_lt1 x⟩ : Fin 4096))

/-- One more step: row p of the new state is computed from the 256-row block of the old state that holds row p. -/
def Hnext (W : Vec F S4096x4096 .bf16) (H : Vec F S1024x4096 .bf16) : Vec F S1024x4096 .bf16 := fun y =>
  k0_pay4 (rowsAt H ((y 0).val / 256 * 256)) W
    (ix2 (⟨(y 0).val % 256, Nat.mod_lt _ (by norm_num)⟩ : Fin 256) (⟨(y 1).val, idx2_lt1 y⟩ : Fin 4096))

/-- The hidden state after step s + 1. -/
def Hs (c : Dev nD) : ℕ → Vec F S1024x4096 .bf16
  | 0 => Hfirst m c
  | s + 1 => Hnext (Wkept m c) (Hs c s)

/-- The last 128 rows of a weight array. -/
def lastRows (W : Vec F S4096x4096 .bf16) : Vec F S128x4096 .bf16 := fun x =>
  W (ix2 (⟨3968 + (x 0).val, by have := idx2_lt0 x; omega⟩ : Fin 4096) (⟨(x 1).val, idx2_lt1 x⟩ : Fin 4096))

/-- The result: the last step, restricted to the last 128 output units, from the state after step seven. -/
def result (c : Dev nD) : Vec F S1024x128 .f32 := k0_pay5 (Hs m c 6) (lastRows (Wkept m c))

/-- What the kept buffers hold before point n. -/
def Inv (c : Dev nD) (n : ℕ) (X : Vec F S4096x4096 .bf16) (H : Vec F S1024x4096 .bf16) : Prop :=
  (n ≤ 8 → (∀ y : S4096x4096.Idx, (y 0).val < 512 * n → X y = Wkept m c y)
      ∧ (∀ y : S1024x4096.Idx, (y 1).val < 512 * n → H y = Hfirst m c y))
  ∧ (8 ≤ n → n ≤ 32 → X = Wkept m c
      ∧ ∀ y : S1024x4096.Idx, H y = if (y 0).val < 256 * ((n - 8) % 4) then Hs m c ((n - 8) / 4 + 1) y else Hs m c ((n - 8) / 4) y)

/-- Before the first point nothing is asked of the buffers; -/
theorem inv_zero (c : Dev nD) (X : Vec F S4096x4096 .bf16) (H : Vec F S1024x4096 .bf16) : Inv m c 0 X H :=
  ⟨fun _ => ⟨fun y hy => absurd hy (by omega), fun y hy => absurd hy (by omega)⟩, fun h => absurd h (by omega)⟩

/-- nor after the last. -/
theorem inv_end (c : Dev nD) (X : Vec F S4096x4096 .bf16) (H : Vec F S1024x4096 .bf16) : Inv m c 33 X H :=
  ⟨fun h => absurd h (by omega), fun _ h => absurd h (by omega)⟩

/-- A point n < 8: writing row block n of the weights and column block n of the hidden state. -/
theorem inv_first (c : Dev nD) (n : ℕ) (hn : n < 8) (X X' : Vec F S4096x4096 .bf16) (H H' : Vec F S1024x4096 .bf16)
    (h : Inv m c n X H)
    (hXm : ∀ (y : S4096x4096.Idx) (x : S512x4096.Idx), (y 0).val = n * 512 + (x 0).val → (y 1).val = (x 1).val →
      X' y = k0_pay2 (wblk m c (pt n)) x)
    (hXn : ∀ y : S4096x4096.Idx, ((y 0).val < n * 512 ∨ n * 512 + 512 ≤ (y 0).val) → X' y = X y)
    (hHm : ∀ (y : S1024x4096.Idx) (x : S1024x512.Idx), (y 0).val = (x 0).val → (y 1).val = n * 512 + (x 1).val →
      H' y = k0_pay3 (wblk m c (pt n)) (xblk m c (pt n)) x)
    (hHn : ∀ y : S1024x4096.Idx, ((y 1).val < n * 512 ∨ n * 512 + 512 ≤ (y 1).val) → H' y = H y) :
    Inv m c (n + 1) X' H' := by
  obtain ⟨hX, hH⟩ := h.1 (by omega)
  have kX : ∀ y : S4096x4096.Idx, (y 0).val < 512 * (n + 1) → X' y = Wkept m c y := by
    intro y hy
    by_cases hlt : (y 0).val < n * 512
    · rw [hXn y (Or.inl hlt)]; exact hX y (by omega)
    · have e : (y 0).val / 512 = n := by omega
      rw [hXm y (ix2 (⟨(y 0).val % 512, Nat.mod_lt _ (by norm_num)⟩ : Fin 512) (⟨(y 1).val, idx2_lt1 y⟩ : Fin 4096))
        (by show (y 0).val = n * 512 + (y 0).val % 512; omega) rfl]
      unfold Wkept; rw [e]
  have kH : ∀ y : S1024x4096.Idx, (y 1).val < 512 * (n + 1) → H' y = Hfirst m c y := by
    intro y hy
    by_cases hlt : (y 1).val < n * 512
    · rw [hHn y (Or.inl hlt)]; exact hH y (by omega)
    · have e : (y 1).val / 512 = n := by omega
      rw [hHm y (ix2 (⟨(y 0).val, idx2_lt0 y⟩ : Fin 1024) (⟨(y 1).val % 512, Nat.mod_lt _ (by norm_num)⟩ : Fin 512))
        rfl (by show (y 1).val = n * 512 + (y 1).val % 512; omega)]
      unfold Hfirst; rw [e]
  refine ⟨fun _ => ⟨kX, kH⟩, fun h8 _ => ?_⟩
  have hn7 : n = 7 := by omega
  subst hn7
  refine ⟨funext fun y => kX y (by have := idx2_lt0 y; omega), fun y => ?_⟩
  rw [if_neg (by omega)]
  exact kH y (by have := idx2_lt1 y; omega)

/-- A block of rows read off a state that is step s + 2 below row 256·r and step s + 1 from there on, starting at
    row 256·r, is the block of step s + 1. -/
theorem rowsAt_mixed (c : Dev nD) (H : Vec F S1024x4096 .bf16) (r s : ℕ) (hr : r < 4)
    (hH : ∀ y : S1024x4096.Idx, H y = if (y 0).val < 256 * r then Hs m c (s + 1) y else Hs m c s y) :
    rowsAt H (r * 256) = rowsAt (Hs m c s) (r * 256) := by
  funext x
  unfold rowsAt
  rw [hH, if_neg]
  show ¬ ((r * 256 + (x 0).val) % 1024 < 256 * r)
  have := idx2_lt0 x
  omega

/-- A point 8 ≤ n < 32: replacing rows 256·r … of the hidden state, r = (n − 8) mod 4, by the next step's. -/
theorem inv_mid (c : Dev nD) (n : ℕ) (h8 : 8 ≤ n) (h32 : n < 32) (X : Vec F S4096x4096 .bf16) (H H' : Vec F S1024x4096 .bf16)
    (h : Inv m c n X H)
    (hHm : ∀ (y : S1024x4096.Idx) (x : S256x4096.Idx), (y 0).val = (n - 8) % 4 * 256 + (x 0).val → (y 1).val = (x 1).val →
      H' y = k0_pay4 (rowsAt H ((n - 8) % 4 * 256)) X x)
    (hHn : ∀ y : S1024x4096.Idx, ((y 0).val < (n - 8) % 4 * 256 ∨ (n - 8) % 4 * 256 + 256 ≤ (y 0).val) → H' y = H y) :
    Inv m c (n + 1) X H' := by
  obtain ⟨hXe, hHe⟩ := h.2 h8 (by omega)
  refine ⟨fun h => absurd h (by omega), fun _ _ => ⟨hXe, fun y => ?_⟩⟩
  have hr4 : (n - 8) % 4 < 4 := Nat.mod_lt _ (by norm_num)
  have key := rowsAt_mixed m c H ((n - 8) % 4) ((n - 8) / 4) hr4 hHe
  have hy0 := idx2_lt0 y
  -- the rows written at this point hold the next step
  have hnew : (n - 8) % 4 * 256 ≤ (y 0).val → (y 0).val < (n - 8) % 4 * 256 + 256 → H' y = Hs m c ((n - 8) / 4 + 1) y := by
    intro ha hb
    have e : (y 0).val / 256 * 256 = (n - 8) % 4 * 256 := by omega
    rw [hHm y (ix2 (⟨(y 0).val % 256, Nat.mod_lt _ (by norm_num)⟩ : Fin 256) (⟨(y 1).val, idx2_lt1 y⟩ : Fin 4096))
      (by show (y 0).val = (n - 8) % 4 * 256 + (y 0).val % 256; omega) rfl, key, hXe]
    show _ = Hnext (Wkept m c) (Hs m c ((n - 8) / 4)) y
    unfold Hnext; rw [e]
  rcases (by omega : (n - 8) % 4 < 3 ∨ (n - 8) % 4 = 3) with hr | hr
  · have e1 : (n + 1 - 8) % 4 = (n - 8) % 4 + 1 := by omega
    have e2 : (n + 1 - 8) / 4 = (n - 8) / 4 := by omega
    rw [e1, e2]
    by_cases ha : (y 0).val < (n - 8) % 4 * 256
    · rw [hHn y (Or.inl ha), hHe y, if_pos (by omega), if_pos (by omega)]
    · by_cases hb : (y 0).val < (n - 8) % 4 * 256 + 256
      · rw [hnew (by omega) hb, if_pos (by omega)]
      · rw [hHn y (Or.inr (by omega)), hHe y, if_neg (by omega), if_neg (by omega)]
  · have e1 : (n + 1 - 8) % 4 = 0 := by omega
    have e2 : (n + 1 - 8) / 4 = (n - 8) / 4 + 1 := by omega
    rw [e1, e2, if_neg (by omega)]
    by_cases ha : (y 0).val < (n - 8) % 4 * 256
    · rw [hHn y (Or.inl ha), hHe y, if_pos (by omega)]
    · exact hnew (by omega) (by omega)

/-- At the last point the weights are complete and the hidden state is step seven's. -/
theorem inv_last (c : Dev nD) (X : Vec F S4096x4096 .bf16) (H : Vec F S1024x4096 .bf16) (h : Inv m c 32 X H) :
    X = Wkept m c ∧ H = Hs m c 6 := by
  obtain ⟨hXe, hHe⟩ := h.2 (by omega) (by omega)
  refine ⟨hXe, funext fun y => ?_⟩
  rw [hHe y, if_neg (by omega)]

/-- A load of rows o … o + 255 of the hidden-state buffer (o + 256 ≤ 1024) reads those rows. -/
theorem ld_rowsAt (H : Vec F S1024x4096 .bf16) {off : Fin 2 → ℕ} (inb : ∀ a, off a + S256x4096.size a ≤ S1024x4096.size a)
    (o : ℕ) (ho : o + 256 ≤ 1024) (hoff : off = ![o, 0]) :
    View.ld H (Rect.unit (s := S1024x4096) off S256x4096.size inb) = rowsAt H o := by
  subst hoff
  funext (x : S256x4096.Idx)
  unfold rowsAt
  show H ((Rect.unit (s := S1024x4096) ![o, 0] S256x4096.size inb).idx x) = _
  congr 1
  funext a
  apply Fin.ext
  have hx0 := idx2_lt0 x
  match a with
  | ⟨0, _⟩ => show o + 1 * (x 0).val = (o + (x 0).val) % 1024; omega
  | ⟨1, _⟩ => show 0 + 1 * (x 1).val = (x 1).val; omega

/-- A load of the last 128 rows of the weight buffer reads those rows. -/
theorem ld_lastRows (W : Vec F S4096x4096 .bf16) (inb : ∀ a, (![3968, 0] : Fin 2 → ℕ) a + S128x4096.size a ≤ S4096x4096.size a) :
    View.ld W (Rect.unit (s := S4096x4096) ![3968, 0] S128x4096.size inb) = lastRows W := by
  funext (x : S128x4096.Idx)
  unfold lastRows
  show W ((Rect.unit (s := S4096x4096) ![3968, 0] S128x4096.size inb).idx x) = _
  congr 1
  funext a
  apply Fin.ext
  match a with
  | ⟨0, _⟩ => show 3968 + 1 * (x 0).val = 3968 + (x 0).val; omega
  | ⟨1, _⟩ => show 0 + 1 * (x 1).val = (x 1).val; omega

end Cert.Kernel.Gen

end
-- ==== Proof.Word.Region.lean ====
/-
  The region's proof data and run, for any float instance. The invariant before point n owns the two kept buffers at
  SOME contents of which the point-n property holds (the weights' first row blocks and the hidden state's first
  column blocks in place; later, which rows hold which step), so that it asks nothing before the first point and
  after the last. Each point's branch is run on the staging buffers the pipeline passes; what it leaves in a kept
  buffer is the old contents with one slab written, which re-establishes the property for the next point. The
  result's staging buffer is handed back untouched before the last point, where it is stored whole with the named result.
-/
import proofs.«134139_g10737418240768_week1_w2_1022_16_alg».proof.Proof.Word.Steps
import proofs.«134139_g10737418240768_week1_w2_1022_16_alg».proof.Proof.Word.Carried
import Idealize.ShloMosaic.Lib.WritesUnit

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point n: the kept buffers at some contents with the point's property, and the generator register. -/
def PhiS (c : Dev nD) (n : ℕ) : sProp 𝕄 :=
  iprop(iprop(∃ X, ∃ H, ⌜Inv m c n X H⌝ ∗ owns (c : Thread nD τ) scW fullShare X ∗ owns (c : Thread nD τ) scH fullShare H) ∗ (∃ r, prngReg c r))

/-- The proof data of the one pipeline on core c: the arrays as the region finds them; after the body each input's
    buffer at its block and the result's at the named result; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = result m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- One whole-buffer store leaves its payload. -/
theorem read_stored_whole {s : Shape} {e : EltTy} {M : Memref sig .tc .vmem s e} (hM : M.IsWhole) (X : s.Idx → Elt F e)
    {off : Fin s.rank → ℕ} (h0 : off = fun _ => 0) (inb : ∀ a, off a + s.size a ≤ s.size a) (w : s.Idx → Elt F e) :
    M.view.read (Elt F) (M.view.writes (Elt F) (hM.unread X) [⟨Rect.unit off s.size inb, w⟩]) = w :=
  funext fun y => View.read_writes_cons_unit_of_mem M.view _ inb w [] y y h0 (fun a => (Nat.zero_add _).symm)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from by dsimp only [dats]; simp only [Fin.coe_castSucc]]
  have hN : t.val < 33 := lt_of_lt_of_eq t.isLt (show cfg0.N = 33 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold PhiS
  by_cases hA : t.val < 8
  · have h1 : k0_cond1 (grid0.coords t) = 1#1 := (hcond1 t).mpr hA
    have h2 : ¬ k0_cond2 (grid0.coords t) = 1#1 := fun h => by have := (hcond2 t).mp h; omega
    have h3 : ¬ k0_cond3 (grid0.coords t) = 1#1 := fun h => by have := (hcond3 t).mp h; omega
    rw [Dat.leavesExact_idle (dats m 0 c) 2 t (idleAt0_2 t (by omega)) (noFlush0_2 t (by omega))]
    iintro ⟨⟨⟨%X, %H, %hInv, HW, HH⟩, Hg⟩, Ho, ⟨%d0, H0⟩, ⟨%d1, H1⟩, ⟨%d2, H2⟩⟩
    iapply (run_first c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
    isplitl [H0]; · iexact H0
    isplitl [H1]; · iexact H1
    isplitl [H2]; · iexact H2
    isplitl [HW]; · iexact HW
    isplitl [HH]; · iexact HH
    iintro ⟨H0, H1, H2, HW, HH⟩
    isplitl [HW HH Hg]
    · isplitl [HW HH]
      · iexists _; iexists _
        isplitr
        swap
        · isplitl [HW]; · iexact HW
          iexact HH
        ipureintro
        have e := pt_val t
        refine inv_first m c t.val hA X _ H _ hInv ?_ ?_ ?_ ?_
        · intro y x h0 h1'
          rw [e]
          exact View.read_writes_cons_rows_of_mem _ _ _ _ [] y x (hoff1 t) h0 h1'
        · intro y hy
          rw [View.read_writes_cons_rows_of_not_mem _ _ _ _ [] y (hoff1 t) (W := 512) rfl hy, View.writes_nil]
          exact congrFun (Memref.IsWhole.read_unread _ X) y
        · intro y x h0 h1'
          rw [e]
          exact View.read_writes_cons_unit_of_mem _ _ _ _ [] y x (hoff2 t)
            (Fin.forall_fin_two.mpr ⟨by show (y 0).val = 0 + (x 0).val; omega, by show (y 1).val = t.val * 512 + (x 1).val; omega⟩)
        · intro y hy
          rw [View.read_writes_cons_unit_of_not_mem _ _ _ _ [] y (hoff2 t) (1 : Fin 2)
            (by show (y 1).val < t.val * 512 ∨ t.val * 512 + 512 ≤ (y 1).val; exact hy), View.writes_nil]
          exact congrFun (Memref.IsWhole.read_unread _ H) y
      iexact Hg
    isplitl [Ho]; · iexact Ho
    isplitl [H0]; · iexact H0
    isplitl [H1]; · iexact H1
    iexists _; iexact H2
  · by_cases hB : t.val < 32
    · have h1 : ¬ k0_cond1 (grid0.coords t) = 1#1 := fun h => hA ((hcond1 t).mp h)
      have h2 : k0_cond2 (grid0.coords t) = 1#1 := (hcond2 t).mpr ⟨by omega, hB⟩
      have h3 : ¬ k0_cond3 (grid0.coords t) = 1#1 := fun h => by have := (hcond3 t).mp h; omega
      rw [Dat.leavesExact_idle (dats m 0 c) 2 t (idleAt0_2 t (by omega)) (noFlush0_2 t (by omega))]
      iintro ⟨⟨⟨%X, %H, %hInv, HW, HH⟩, Hg⟩, Ho, ⟨%d0, H0⟩, ⟨%d1, H1⟩, ⟨%d2, H2⟩⟩
      iapply (run_mid c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
      isplitl [H0]; · iexact H0
      isplitl [H1]; · iexact H1
      isplitl [H2]; · iexact H2
      isplitl [HW]; · iexact HW
      isplitl [HH]; · iexact HH
      iintro ⟨H0, H1, H2, HW, HH⟩
      isplitl [HW HH Hg]
      · isplitl [HW HH]
        · iexists _; iexists _
          isplitr
          swap
          · isplitl [HW]; · iexact HW
            iexact HH
          ipureintro
          have ho3 := hoff3 t (by omega)
          refine inv_mid m c t.val (by omega) hB X H _ hInv ?_ ?_
          · intro y x h0 h1'
            rw [← ld_rowsAt H (k0_off3_inb (grid0.coords t) h2) ((t.val - 8) % 4 * 256) (by omega) ho3]
            exact View.read_writes_cons_rows_of_mem _ _ _ _ [] y x ho3 h0 h1'
          · intro y hy
            rw [View.read_writes_cons_rows_of_not_mem _ _ _ _ [] y ho3 (W := 256) rfl hy, View.writes_nil]
            exact congrFun (Memref.IsWhole.read_unread _ H) y
        iexact Hg
      isplitl [Ho]; · iexact Ho
      isplitl [H0]; · iexact H0
      isplitl [H1]; · iexact H1
      iexists _; iexact H2
    · have h32 : t.val = 32 := by omega
      have h1 : ¬ k0_cond1 (grid0.coords t) = 1#1 := fun h => hA ((hcond1 t).mp h)
      have h2 : ¬ k0_cond2 (grid0.coords t) = 1#1 := fun h => hB ((hcond2 t).mp h).2
      have h3 : k0_cond3 (grid0.coords t) = 1#1 := (hcond3 t).mpr h32
      rw [show (dats m 0 c).leavesExact 2 t = owns (c : Thread nD τ) (ms0_2 t) fullShare ((dats m 0 c).after 2 t) from by
        unfold Dat.leavesExact; rw [liveAt0_2 t h32], after0_2]
      iintro ⟨⟨⟨%X, %H, %hInv, HW, HH⟩, Hg⟩, Ho, ⟨%d0, H0⟩, ⟨%d1, H1⟩, ⟨%d2, H2⟩⟩
      iapply (run_last c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
      isplitl [H0]; · iexact H0
      isplitl [H1]; · iexact H1
      isplitl [H2]; · iexact H2
      isplitl [HW]; · iexact HW
      isplitl [HH]; · iexact HH
      iintro ⟨H0, H1, H2, HW, HH⟩
      isplitl [HW HH Hg]
      · isplitl [HW HH]
        · iexists _; iexists _
          isplitr
          swap
          · isplitl [HW]; · iexact HW
            iexact HH
          ipureintro
          rw [h32]
          exact inv_end m c X H
        iexact Hg
      isplitl [Ho]; · iexact Ho
      isplitl [H0]; · iexact H0
      isplitl [H1]; · iexact H1
      have hres : ∀ x3 : Vec F S1024x128 .f32, (ms0_2 t).view.read (Elt F) ((ms0_2 t).view.writes (Elt F) ((hs0_2 t).unread x3)
          [⟨Rect.unit ![0, 0] S1024x128.size inb_S1024x128_S1024x128_0_0,
            k0_pay5 H (View.ld X (Rect.unit ![3968, 0] S128x4096.size inb_S4096x4096_S128x4096_3968_0))⟩]) = result m c := by
        intro x3
        rw [read_stored_whole (F := F) (hs0_2 t) _ (funext fun a => by fin_cases a <;> rfl) inb_S1024x128_S1024x128_0_0]
        obtain ⟨eX, eH⟩ := inv_last m c X H (h32 ▸ hInv)
        rw [ld_lastRows, eX, eH]; rfl
      rw [hres]
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%X, HW⟩, ⟨%H, HH⟩⟩, Hg⟩
  isplitl [HW HH]
  · iexists X; iexists H
    isplitr
    · ipureintro; exact inv_zero m c X H
    isplitl [HW]; · iexact HW
    iexact HH
  iexact Hg

/-- After the last point the invariant gives the kept buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%X, %H, %hInv, HW, HH⟩, Hg⟩
  isplitl [HW HH]
  · isplitl [HW]
    · iexists _; iexact HW
    iexists _; iexact HH
  iexact Hg

set_option backward.isDefEq.respectTransparency.types false in
/-- Every weakly fair execution of @main terminates, every array of the pipeline ending at what the library computes
    from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.Ideal.Schedule.lean ====
/-
  The grid's 33 points in closed form. Point t < 8 takes the first branch (row block t of the weight matrix is
  converted and kept, and column block t of the first hidden state is computed); points 8 ≤ t < 32 take the second
  (rows 256·((t − 8) mod 4) … of the hidden state are replaced by the next step's); point 32 takes the third (the
  last 128 output units). The offsets the branches compute are those multiples, and the result's block is written
  back after the last point only.
-/
import proofs.«134139_g10737418240768_week1_w2_1022_16_alg».proof.Proof.Gen.KernelIdeal.Frame
import proofs.«134139_g10737418240768_week1_w2_1022_16_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch is taken at the points below 8. -/
theorem hcond1 : ∀ t : Fin cfg0.N, k0_cond1 (grid0.coords t) = 1#1 ↔ t.val < 8 :=
  (by decide +kernel : ∀ t : Fin grid0.N, k0_cond1 (grid0.coords t) = 1#1 ↔ t.val < 8)
/-- The second branch is taken at the points 8 … 31. -/
theorem hcond2 : ∀ t : Fin cfg0.N, k0_cond2 (grid0.coords t) = 1#1 ↔ (8 ≤ t.val ∧ t.val < 32) :=
  (by decide +kernel : ∀ t : Fin grid0.N, k0_cond2 (grid0.coords t) = 1#1 ↔ (8 ≤ t.val ∧ t.val < 32))
/-- The third branch is taken at the last point. -/
theorem hcond3 : ∀ t : Fin cfg0.N, k0_cond3 (grid0.coords t) = 1#1 ↔ t.val = 32 :=
  (by decide +kernel : ∀ t : Fin grid0.N, k0_cond3 (grid0.coords t) = 1#1 ↔ t.val = 32)

/-- The weight rows kept at point t start at row 512·t. -/
theorem hoff1 : ∀ t : Fin cfg0.N, k0_off1 (grid0.coords t) = ![t.val * 512, 0] :=
  (by decide +kernel : ∀ t : Fin grid0.N, k0_off1 (grid0.coords t) = ![t.val * 512, 0])
/-- The hidden columns computed at point t start at column 512·t. -/
theorem hoff2 : ∀ t : Fin cfg0.N, k0_off2 (grid0.coords t) = ![0, t.val * 512] :=
  (by decide +kernel : ∀ t : Fin grid0.N, k0_off2 (grid0.coords t) = ![0, t.val * 512])
/-- The hidden rows replaced at a point t ≥ 8 start at row 256·((t − 8) mod 4). -/
theorem hoff3 : ∀ t : Fin cfg0.N, 8 ≤ t.val → k0_off3 (grid0.coords t) = ![(t.val - 8) % 4 * 256, 0] :=
  (by decide +kernel : ∀ t : Fin grid0.N, 8 ≤ t.val → k0_off3 (grid0.coords t) = ![(t.val - 8) % 4 * 256, 0])

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The result's window is idle before the last point, and not written back there; -/
theorem idleAt0_2 : ∀ t : Fin cfg0.N, t.val ≠ 32 → cfg0.idle 2 (grid0.coords t) = true := by decide +kernel
theorem noFlush0_2 : ∀ t : Fin cfg0.N, t.val ≠ 32 → (cfg0.win 2).flush t = false := by decide +kernel
/-- at the last point it is stored. -/
theorem liveAt0_2 : ∀ t : Fin cfg0.N, t.val = 32 → cfg0.idle 2 (grid0.coords t) = false := by decide +kernel

/-- Each window's current staging memref at point t, as the pipeline passes it, and its wholeness. -/
abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The two buffers the kernel keeps between points: the converted weight matrix and the hidden state. -/
abbrev scW : Memref sig .tc .vmem S4096x4096 .bf16 := Memref.whole cc0_scratch0
abbrev scH : Memref sig .tc .vmem S1024x4096 .bf16 := Memref.whole cc0_scratch1

/-- What the region is handed besides its windows: the two kept buffers at some contents, and the generator register. -/
theorem PhiA0_eq (c : Dev nD) :
    (Pipeline.ΦA spec0 c : sProp 𝕄)
      = iprop(iprop((∃ d, owns (c : Thread nD τ) scW fullShare d) ∗ (∃ d, owns (c : Thread nD τ) scH fullShare d)) ∗ (∃ r, prngReg c r)) := by
  unfold Pipeline.ΦA; rw [scopedRest0_eq]; simp only [scW, scH, owns_whole]; try rfl

end Cert.KernelIdeal.Gen

end
-- ==== Proof.Ideal.Steps.lean ====
/-
  The kernel body run once in each of its three branches, on whole buffers at any contents. Branch one keeps the
  converted weight rows and one column block of the first hidden state; branch two replaces one block of rows of the
  hidden state by the logistic of its product with the kept weights; branch three stores the result. Each run hands
  back every buffer it only read unchanged, and each buffer it stored into at its old contents with the one stored
  piece written over them.
-/
import proofs.«134139_g10737418240768_week1_w2_1022_16_alg».proof.Proof.Ideal.Schedule
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole buffer reads its contents. -/
theorem readAt_whole {s : Shape} {e : EltTy} {M : Memref sig .tc .vmem s e} (hM : M.IsWhole) (c : Dev nD) (X : s.Idx → Elt F e)
    {off : Fin s.rank → ℕ} (h0 : off = fun _ => 0) (inb : ∀ a, off a + s.size a ≤ s.size a) :
    View.readAt (Elt F) M.view (Rect.unit off s.size inb).toLoadRect (hM.unread X) = X := by
  rw [View.readAt_eq_ld, hM.read_unread]; exact View.ld_unit_zero h0 inb X

/-- A load through a rectangle reads the contents at the rectangle's indices. -/
theorem readAt_rect_unread {s : Shape} {e : EltTy} {M : Memref sig .tc .vmem s e} (hM : M.IsWhole) (X : s.Idx → Elt F e) (r : Rect s) :
    View.readAt (Elt F) M.view r.toLoadRect (hM.unread X) = View.ld X r := by
  rw [View.readAt_eq_ld, hM.read_unread]

set_option maxHeartbeats 1000000 in
/-- Branch one (points below 8). -/
theorem run_first (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : k0_cond1 i = 1#1) (h2 : ¬ k0_cond2 i = 1#1) (h3 : ¬ k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2 ∗ owns (c : Thread nD τ) arg3 fullShare x3
            ∗ owns (c : Thread nD τ) arg4 fullShare (arg4.view.read (Elt F) (arg4.view.writes (Elt F) (harg4.unread x4)
                [⟨Rect.unit (k0_off1 i) S512x4096.size (k0_off1_inb i h1), k0_pay2 x2⟩]))
            ∗ owns (c : Thread nD τ) arg5 fullShare (arg5.view.read (Elt F) (arg5.view.writes (Elt F) (harg5.unread x5)
                [⟨Rect.unit (k0_off2 i) S1024x512.size (k0_off2_inb i h1), k0_pay3 x2 x1⟩]))) -∗ K ⟨⟩))
      ⊢ wp frame (wpE (defs₀ (F := F)) Variants.none c none) E (cc0__body i arg1 harg1 arg2 harg2 arg3 harg3 arg4 harg4 arg5 harg5) K := by
  have e2 := readAt_whole (F := F) harg2 c x2 (off := ![0, 0]) (funext fun a => by fin_cases a <;> rfl) inb_S512x4096_S512x4096_0_0
  have e1 := readAt_whole (F := F) harg1 c x1 (off := ![0, 0]) (funext fun a => by fin_cases a <;> rfl) inb_S1024x1024_S1024x1024_0_0
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro; first | rfl | (rw [e2]; rfl)
  iexists _; isplitr
  swap; · iexact H5
  ipureintro; first | rfl | (rw [e2, e1]; rfl)

set_option maxHeartbeats 1000000 in
/-- Branch two (points 8 … 31). -/
theorem run_mid (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : ¬ k0_cond1 i = 1#1) (h2 : k0_cond2 i = 1#1) (h3 : ¬ k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2 ∗ owns (c : Thread nD τ) arg3 fullShare x3
            ∗ owns (c : Thread nD τ) arg4 fullShare x4
            ∗ owns (c : Thread nD τ) arg5 fullShare (arg5.view.read (Elt F) (arg5.view.writes (Elt F) (harg5.unread x5)
                [⟨Rect.unit (k0_off3 i) S256x4096.size (k0_off3_inb i h2),
                  k0_pay4 (View.ld x5 (Rect.unit (k0_off3 i) S256x4096.size (k0_off3_inb i h2))) x4⟩]))) -∗ K ⟨⟩))
      ⊢ wp frame (wpE (defs₀ (F := F)) Variants.none c none) E (cc0__body i arg1 harg1 arg2 harg2 arg3 harg3 arg4 harg4 arg5 harg5) K := by
  have e4 := readAt_whole (F := F) harg4 c x4 (off := ![0, 0]) (funext fun a => by fin_cases a <;> rfl) inb_S4096x4096_S4096x4096_0_0
  have e5 := readAt_rect_unread (F := F) harg5 x5 (Rect.unit (k0_off3 i) S256x4096.size (k0_off3_inb i h2))
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  iexists _; isplitr
  swap; · iexact H5
  ipureintro; first | rfl | (rw [e4, e5]; rfl)

set_option maxHeartbeats 1000000 in
/-- Branch three (the last point). -/
theorem run_last (c : Dev nD) (i : grid0.Coords) (arg1 : Memref sig .tc .vmem S1024x1024 .bf16) (harg1 : arg1.IsWhole) (arg2 : Memref sig .tc .vmem S512x4096 .f32) (harg2 : arg2.IsWhole) (arg3 : Memref sig .tc .vmem S1024x128 .f32) (harg3 : arg3.IsWhole) (arg4 : Memref sig .tc .vmem S4096x4096 .bf16) (harg4 : arg4.IsWhole) (arg5 : Memref sig .tc .vmem S1024x4096 .bf16) (harg5 : arg5.IsWhole)
    (h1 : ¬ k0_cond1 i = 1#1) (h2 : ¬ k0_cond2 i = 1#1) (h3 : k0_cond3 i = 1#1)
    (x1 : Vec F S1024x1024 .bf16) (x2 : Vec F S512x4096 .f32) (x3 : Vec F S1024x128 .f32) (x4 : Vec F S4096x4096 .bf16) (x5 : Vec F S1024x4096 .bf16) (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ (iprop(owns (c : Thread nD τ) arg1 fullShare x1 ∗ owns (c : Thread nD τ) arg2 fullShare x2
            ∗ owns (c : Thread nD τ) arg3 fullShare (arg3.view.read (Elt F) (arg3.view.writes (Elt F) (harg3.unread x3)
                [⟨Rect.unit ![0, 0] S1024x128.size inb_S1024x128_S1024x128_0_0,
                  k0_pay5 x5 (View.ld x4 (Rect.unit ![3968, 0] S128x4096.size inb_S4096x4096_S128x4096_3968_0))⟩]))
            ∗ owns (c : Thread nD τ) arg4 fullShare x4 ∗ owns (c : Thread nD τ) arg5 fullShare x5) -∗ K ⟨⟩))
      ⊢ wp frame (wpE (defs₀ (F := F)) Variants.none c none) E (cc0__body i arg1 harg1 arg2 harg2 arg3 harg3 arg4 harg4 arg5 harg5) K := by
  have e5 := readAt_whole (F := F) harg5 c x5 (off := ![0, 0]) (funext fun a => by fin_cases a <;> rfl) inb_S1024x4096_S1024x4096_0_0
  have e4 := readAt_rect_unread (F := F) harg4 x4 (Rect.unit ![3968, 0] S128x4096.size inb_S4096x4096_S128x4096_3968_0)
  simp only [cc0__body_eq_skeleton]; unfold cc0__body_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact h1 | exact h2 | exact h3)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro; first | rfl | (rw [e5, e4]; rfl)
  isplitl [H4]
  · iexists _; isplitr; · ipureintro; exact harg4.read_unread _
    iexact H4
  iexists _; isplitr; · ipureintro; exact harg5.read_unread _
  iexact H5

end Cert.KernelIdeal.Gen

end
-- ==== Proof.Ideal.Carried.lean ====
/-
  What the two kept buffers hold before each grid point, named through the body's own payload functions, for any
  float instance. The weight buffer's row block j (512 rows) is the conversion of the weight window's block at
  point j. The hidden state after step one has column block j (512 columns) computed at point j from that block
  and the input; each later step replaces the state, 256 rows at a time, by the logistic of its product with the kept
  weights, and a block of rows depends only on the same rows of the state before. Before point n ≤ 8 the first n row
  blocks of the weights and the first n column blocks of the hidden state are in place (the rest is whatever the
  buffers held); before point n = 8 + 4s + r the weights are complete, rows below 256·r hold step s + 2 and the
  others step s + 1; at point 32 the result is computed from step 7 and the last 128 weight rows.
-/
import proofs.«134139_g10737418240768_week1_w2_1022_16_alg».proof.Proof.Ideal.Schedule
import Idealize.ShloMosaic.Lib.ValueIdx

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ)

/-- Grid point number n (taken modulo the 33 points, so that it is total). -/
def pt (n : ℕ) : Fin cfg0.N := ⟨n % 33, lt_of_lt_of_eq (Nat.mod_lt _ (by norm_num)) (show (33 : ℕ) = cfg0.N from N_0.symm)⟩

theorem pt_val (t : Fin cfg0.N) : pt t.val = t :=
  Fin.ext (Nat.mod_eq_of_lt (lt_of_lt_of_eq t.isLt (show cfg0.N = 33 from N_0)))

/-- The weight window's block and the input window's block at a point, as plain arrays. -/
def wblk (c : Dev nD) (t : Fin cfg0.N) : Vec F S512x4096 .f32 := iblk m c 1 t
def xblk (c : Dev nD) (t : Fin cfg0.N) : Vec F S1024x1024 .bf16 := iblk m c 0 t

/-- The kept weights: row r is row r mod 512 of the conversion of block r / 512. -/
def Wkept (c : Dev nD) : Vec F S4096x4096 .bf16 := fun y =>
  k0_pay2 (wblk m c (pt ((y 0).val / 512)))
    (ix2 (⟨(y 0).val % 512, Nat.mod_lt _ (by norm_num)⟩ : Fin 512) (⟨(y 1).val, idx2_lt1 y⟩ : Fin 4096))

/-- The hidden state after step one: column q is column q mod 512 of what point q / 512 computes. -/
def Hfirst (c : Dev nD) : Vec F S1024x4096 .bf16 := fun y =>
  k0_pay3 (wblk m c (pt ((y 1).val / 512))) (xblk m c (pt ((y 1).val / 512)))
    (ix2 (⟨(y 0).val, idx2_lt0 y⟩ : Fin 1024) (⟨(y 1).val % 512, Nat.mod_lt _ (by norm_num)⟩ : Fin 512))

/-- Rows o … o + 255 of a hidden state (row numbers taken modulo 1024, so that it is total). -/
def rowsAt (H : Vec F S1024x4096 .bf16) (o : ℕ) : Vec F S256x4096 .bf16 := fun x =>
  H (ix2 (⟨(o + (x 0).val) % 1024, Nat.mod_lt _ (by norm_num)⟩ : Fin 1024) (⟨(x 1).val, idx2_lt1 x⟩ : Fin 4096))

/-- One more step: row p of the new state is computed from the 256-row block of the old state that holds row p. -/
def Hnext (W : Vec F S4096x4096 .bf16) (H : Vec F S1024x4096 .bf16) : Vec F S1024x4096 .bf16 := fun y =>
  k0_pay4 (rowsAt H ((y 0).val / 256 * 256)) W
    (ix2 (⟨(y 0).val % 256, Nat.mod_lt _ (by norm_num)⟩ : Fin 256) (⟨(y 1).val, idx2_lt1 y⟩ : Fin 4096))

/-- The hidden state after step s + 1. -/
def Hs (c : Dev nD) : ℕ → Vec F S1024x4096 .bf16
  | 0 => Hfirst m c
  | s + 1 => Hnext (Wkept m c) (Hs c s)

/-- The last 128 rows of a weight array. -/
def lastRows (W : Vec F S4096x4096 .bf16) : Vec F S128x4096 .bf16 := fun x =>
  W (ix2 (⟨3968 + (x 0).val, by have := idx2_lt0 x; omega⟩ : Fin 4096) (⟨(x 1).val, idx2_lt1 x⟩ : Fin 4096))

/-- The result: the last step, restricted to the last 128 output units, from the state after step seven. -/
def result (c : Dev nD) : Vec F S1024x128 .f32 := k0_pay5 (Hs m c 6) (lastRows (Wkept m c))

/-- What the kept buffers hold before point n. -/
def Inv (c : Dev nD) (n : ℕ) (X : Vec F S4096x4096 .bf16) (H : Vec F S1024x4096 .bf16) : Prop :=
  (n ≤ 8 → (∀ y : S4096x4096.Idx, (y 0).val < 512 * n → X y = Wkept m c y)
      ∧ (∀ y : S1024x4096.Idx, (y 1).val < 512 * n → H y = Hfirst m c y))
  ∧ (8 ≤ n → n ≤ 32 → X = Wkept m c
      ∧ ∀ y : S1024x4096.Idx, H y = if (y 0).val < 256 * ((n - 8) % 4) then Hs m c ((n - 8) / 4 + 1) y else Hs m c ((n - 8) / 4) y)

/-- Before the first point nothing is asked of the buffers; -/
theorem inv_zero (c : Dev nD) (X : Vec F S4096x4096 .bf16) (H : Vec F S1024x4096 .bf16) : Inv m c 0 X H :=
  ⟨fun _ => ⟨fun y hy => absurd hy (by omega), fun y hy => absurd hy (by omega)⟩, fun h => absurd h (by omega)⟩

/-- nor after the last. -/
theorem inv_end (c : Dev nD) (X : Vec F S4096x4096 .bf16) (H : Vec F S1024x4096 .bf16) : Inv m c 33 X H :=
  ⟨fun h => absurd h (by omega), fun _ h => absurd h (by omega)⟩

/-- A point n < 8: writing row block n of the weights and column block n of the hidden state. -/
theorem inv_first (c : Dev nD) (n : ℕ) (hn : n < 8) (X X' : Vec F S4096x4096 .bf16) (H H' : Vec F S1024x4096 .bf16)
    (h : Inv m c n X H)
    (hXm : ∀ (y : S4096x4096.Idx) (x : S512x4096.Idx), (y 0).val = n * 512 + (x 0).val → (y 1).val = (x 1).val →
      X' y = k0_pay2 (wblk m c (pt n)) x)
    (hXn : ∀ y : S4096x4096.Idx, ((y 0).val < n * 512 ∨ n * 512 + 512 ≤ (y 0).val) → X' y = X y)
    (hHm : ∀ (y : S1024x4096.Idx) (x : S1024x512.Idx), (y 0).val = (x 0).val → (y 1).val = n * 512 + (x 1).val →
      H' y = k0_pay3 (wblk m c (pt n)) (xblk m c (pt n)) x)
    (hHn : ∀ y : S1024x4096.Idx, ((y 1).val < n * 512 ∨ n * 512 + 512 ≤ (y 1).val) → H' y = H y) :
    Inv m c (n + 1) X' H' := by
  obtain ⟨hX, hH⟩ := h.1 (by omega)
  have kX : ∀ y : S4096x4096.Idx, (y 0).val < 512 * (n + 1) → X' y = Wkept m c y := by
    intro y hy
    by_cases hlt : (y 0).val < n * 512
    · rw [hXn y (Or.inl hlt)]; exact hX y (by omega)
    · have e : (y 0).val / 512 = n := by omega
      rw [hXm y (ix2 (⟨(y 0).val % 512, Nat.mod_lt _ (by norm_num)⟩ : Fin 512) (⟨(y 1).val, idx2_lt1 y⟩ : Fin 4096))
        (by show (y 0).val = n * 512 + (y 0).val % 512; omega) rfl]
      unfold Wkept; rw [e]
  have kH : ∀ y : S1024x4096.Idx, (y 1).val < 512 * (n + 1) → H' y = Hfirst m c y := by
    intro y hy
    by_cases hlt : (y 1).val < n * 512
    · rw [hHn y (Or.inl hlt)]; exact hH y (by omega)
    · have e : (y 1).val / 512 = n := by omega
      rw [hHm y (ix2 (⟨(y 0).val, idx2_lt0 y⟩ : Fin 1024) (⟨(y 1).val % 512, Nat.mod_lt _ (by norm_num)⟩ : Fin 512))
        rfl (by show (y 1).val = n * 512 + (y 1).val % 512; omega)]
      unfold Hfirst; rw [e]
  refine ⟨fun _ => ⟨kX, kH⟩, fun h8 _ => ?_⟩
  have hn7 : n = 7 := by omega
  subst hn7
  refine ⟨funext fun y => kX y (by have := idx2_lt0 y; omega), fun y => ?_⟩
  rw [if_neg (by omega)]
  exact kH y (by have := idx2_lt1 y; omega)

/-- A block of rows read off a state that is step s + 2 below row 256·r and step s + 1 from there on, starting at
    row 256·r, is the block of step s + 1. -/
theorem rowsAt_mixed (c : Dev nD) (H : Vec F S1024x4096 .bf16) (r s : ℕ) (hr : r < 4)
    (hH : ∀ y : S1024x4096.Idx, H y = if (y 0).val < 256 * r then Hs m c (s + 1) y else Hs m c s y) :
    rowsAt H (r * 256) = rowsAt (Hs m c s) (r * 256) := by
  funext x
  unfold rowsAt
  rw [hH, if_neg]
  show ¬ ((r * 256 + (x 0).val) % 1024 < 256 * r)
  have := idx2_lt0 x
  omega

/-- A point 8 ≤ n < 32: replacing rows 256·r … of the hidden state, r = (n − 8) mod 4, by the next step's. -/
theorem inv_mid (c : Dev nD) (n : ℕ) (h8 : 8 ≤ n) (h32 : n < 32) (X : Vec F S4096x4096 .bf16) (H H' : Vec F S1024x4096 .bf16)
    (h : Inv m c n X H)
    (hHm : ∀ (y : S1024x4096.Idx) (x : S256x4096.Idx), (y 0).val = (n - 8) % 4 * 256 + (x 0).val → (y 1).val = (x 1).val →
      H' y = k0_pay4 (rowsAt H ((n - 8) % 4 * 256)) X x)
    (hHn : ∀ y : S1024x4096.Idx, ((y 0).val < (n - 8) % 4 * 256 ∨ (n - 8) % 4 * 256 + 256 ≤ (y 0).val) → H' y = H y) :
    Inv m c (n + 1) X H' := by
  obtain ⟨hXe, hHe⟩ := h.2 h8 (by omega)
  refine ⟨fun h => absurd h (by omega), fun _ _ => ⟨hXe, fun y => ?_⟩⟩
  have hr4 : (n - 8) % 4 < 4 := Nat.mod_lt _ (by norm_num)
  have key := rowsAt_mixed m c H ((n - 8) % 4) ((n - 8) / 4) hr4 hHe
  have hy0 := idx2_lt0 y
  -- the rows written at this point hold the next step
  have hnew : (n - 8) % 4 * 256 ≤ (y 0).val → (y 0).val < (n - 8) % 4 * 256 + 256 → H' y = Hs m c ((n - 8) / 4 + 1) y := by
    intro ha hb
    have e : (y 0).val / 256 * 256 = (n - 8) % 4 * 256 := by omega
    rw [hHm y (ix2 (⟨(y 0).val % 256, Nat.mod_lt _ (by norm_num)⟩ : Fin 256) (⟨(y 1).val, idx2_lt1 y⟩ : Fin 4096))
      (by show (y 0).val = (n - 8) % 4 * 256 + (y 0).val % 256; omega) rfl, key, hXe]
    show _ = Hnext (Wkept m c) (Hs m c ((n - 8) / 4)) y
    unfold Hnext; rw [e]
  rcases (by omega : (n - 8) % 4 < 3 ∨ (n - 8) % 4 = 3) with hr | hr
  · have e1 : (n + 1 - 8) % 4 = (n - 8) % 4 + 1 := by omega
    have e2 : (n + 1 - 8) / 4 = (n - 8) / 4 := by omega
    rw [e1, e2]
    by_cases ha : (y 0).val < (n - 8) % 4 * 256
    · rw [hHn y (Or.inl ha), hHe y, if_pos (by omega), if_pos (by omega)]
    · by_cases hb : (y 0).val < (n - 8) % 4 * 256 + 256
      · rw [hnew (by omega) hb, if_pos (by omega)]
      · rw [hHn y (Or.inr (by omega)), hHe y, if_neg (by omega), if_neg (by omega)]
  · have e1 : (n + 1 - 8) % 4 = 0 := by omega
    have e2 : (n + 1 - 8) / 4 = (n - 8) / 4 + 1 := by omega
    rw [e1, e2, if_neg (by omega)]
    by_cases ha : (y 0).val < (n - 8) % 4 * 256
    · rw [hHn y (Or.inl ha), hHe y, if_pos (by omega)]
    · exact hnew (by omega) (by omega)

/-- At the last point the weights are complete and the hidden state is step seven's. -/
theorem inv_last (c : Dev nD) (X : Vec F S4096x4096 .bf16) (H : Vec F S1024x4096 .bf16) (h : Inv m c 32 X H) :
    X = Wkept m c ∧ H = Hs m c 6 := by
  obtain ⟨hXe, hHe⟩ := h.2 (by omega) (by omega)
  refine ⟨hXe, funext fun y => ?_⟩
  rw [hHe y, if_neg (by omega)]

/-- A load of rows o … o + 255 of the hidden-state buffer (o + 256 ≤ 1024) reads those rows. -/
theorem ld_rowsAt (H : Vec F S1024x4096 .bf16) {off : Fin 2 → ℕ} (inb : ∀ a, off a + S256x4096.size a ≤ S1024x4096.size a)
    (o : ℕ) (ho : o + 256 ≤ 1024) (hoff : off = ![o, 0]) :
    View.ld H (Rect.unit (s := S1024x4096) off S256x4096.size inb) = rowsAt H o := by
  subst hoff
  funext (x : S256x4096.Idx)
  unfold rowsAt
  show H ((Rect.unit (s := S1024x4096) ![o, 0] S256x4096.size inb).idx x) = _
  congr 1
  funext a
  apply Fin.ext
  have hx0 := idx2_lt0 x
  match a with
  | ⟨0, _⟩ => show o + 1 * (x 0).val = (o + (x 0).val) % 1024; omega
  | ⟨1, _⟩ => show 0 + 1 * (x 1).val = (x 1).val; omega

/-- A load of the last 128 rows of the weight buffer reads those rows. -/
theorem ld_lastRows (W : Vec F S4096x4096 .bf16) (inb : ∀ a, (![3968, 0] : Fin 2 → ℕ) a + S128x4096.size a ≤ S4096x4096.size a) :
    View.ld W (Rect.unit (s := S4096x4096) ![3968, 0] S128x4096.size inb) = lastRows W := by
  funext (x : S128x4096.Idx)
  unfold lastRows
  show W ((Rect.unit (s := S4096x4096) ![3968, 0] S128x4096.size inb).idx x) = _
  congr 1
  funext a
  apply Fin.ext
  match a with
  | ⟨0, _⟩ => show 3968 + 1 * (x 0).val = 3968 + (x 0).val; omega
  | ⟨1, _⟩ => show 0 + 1 * (x 1).val = (x 1).val; omega

end Cert.KernelIdeal.Gen

end
-- ==== Proof.Ideal.Region.lean ====
/-
  The region's proof data and run, for any float instance. The invariant before point n owns the two kept buffers at
  SOME contents of which the point-n property holds (the weights' first row blocks and the hidden state's first
  column blocks in place; later, which rows hold which step), so that it asks nothing before the first point and
  after the last. Each point's branch is run on the staging buffers the pipeline passes; what it leaves in a kept
  buffer is the old contents with one slab written, which re-establishes the property for the next point. The
  result's staging buffer is handed back untouched before the last point, where it is stored whole with the named result.
-/
import proofs.«134139_g10737418240768_week1_w2_1022_16_alg».proof.Proof.Ideal.Steps
import proofs.«134139_g10737418240768_week1_w2_1022_16_alg».proof.Proof.Ideal.Carried
import Idealize.ShloMosaic.Lib.WritesUnit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant before point n: the kept buffers at some contents with the point's property, and the generator register. -/
def PhiS (c : Dev nD) (n : ℕ) : sProp 𝕄 :=
  iprop(iprop(∃ X, ∃ H, ⌜Inv m c n X H⌝ ∗ owns (c : Thread nD τ) scW fullShare X ∗ owns (c : Thread nD τ) scH fullShare H) ∗ (∃ r, prngReg c r))

/-- The proof data of the one pipeline on core c: the arrays as the region finds them; after the body each input's
    buffer at its block and the result's at the named result; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = result m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- One whole-buffer store leaves its payload. -/
theorem read_stored_whole {s : Shape} {e : EltTy} {M : Memref sig .tc .vmem s e} (hM : M.IsWhole) (X : s.Idx → Elt F e)
    {off : Fin s.rank → ℕ} (h0 : off = fun _ => 0) (inb : ∀ a, off a + s.size a ≤ s.size a) (w : s.Idx → Elt F e) :
    M.view.read (Elt F) (M.view.writes (Elt F) (hM.unread X) [⟨Rect.unit off s.size inb, w⟩]) = w :=
  funext fun y => View.read_writes_cons_unit_of_mem M.view _ inb w [] y y h0 (fun a => (Nat.zero_add _).symm)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) from rfl,
    show (dats m 0 c).Φ t.castSucc = PhiS m c t.val from by dsimp only [dats]; simp only [Fin.coe_castSucc]]
  have hN : t.val < 33 := lt_of_lt_of_eq t.isLt (show cfg0.N = 33 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  unfold PhiS
  by_cases hA : t.val < 8
  · have h1 : k0_cond1 (grid0.coords t) = 1#1 := (hcond1 t).mpr hA
    have h2 : ¬ k0_cond2 (grid0.coords t) = 1#1 := fun h => by have := (hcond2 t).mp h; omega
    have h3 : ¬ k0_cond3 (grid0.coords t) = 1#1 := fun h => by have := (hcond3 t).mp h; omega
    rw [Dat.leavesExact_idle (dats m 0 c) 2 t (idleAt0_2 t (by omega)) (noFlush0_2 t (by omega))]
    iintro ⟨⟨⟨%X, %H, %hInv, HW, HH⟩, Hg⟩, Ho, ⟨%d0, H0⟩, ⟨%d1, H1⟩, ⟨%d2, H2⟩⟩
    iapply (run_first c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
    isplitl [H0]; · iexact H0
    isplitl [H1]; · iexact H1
    isplitl [H2]; · iexact H2
    isplitl [HW]; · iexact HW
    isplitl [HH]; · iexact HH
    iintro ⟨H0, H1, H2, HW, HH⟩
    isplitl [HW HH Hg]
    · isplitl [HW HH]
      · iexists _; iexists _
        isplitr
        swap
        · isplitl [HW]; · iexact HW
          iexact HH
        ipureintro
        have e := pt_val t
        refine inv_first m c t.val hA X _ H _ hInv ?_ ?_ ?_ ?_
        · intro y x h0 h1'
          rw [e]
          exact View.read_writes_cons_rows_of_mem _ _ _ _ [] y x (hoff1 t) h0 h1'
        · intro y hy
          rw [View.read_writes_cons_rows_of_not_mem _ _ _ _ [] y (hoff1 t) (W := 512) rfl hy, View.writes_nil]
          exact congrFun (Memref.IsWhole.read_unread _ X) y
        · intro y x h0 h1'
          rw [e]
          exact View.read_writes_cons_unit_of_mem _ _ _ _ [] y x (hoff2 t)
            (Fin.forall_fin_two.mpr ⟨by show (y 0).val = 0 + (x 0).val; omega, by show (y 1).val = t.val * 512 + (x 1).val; omega⟩)
        · intro y hy
          rw [View.read_writes_cons_unit_of_not_mem _ _ _ _ [] y (hoff2 t) (1 : Fin 2)
            (by show (y 1).val < t.val * 512 ∨ t.val * 512 + 512 ≤ (y 1).val; exact hy), View.writes_nil]
          exact congrFun (Memref.IsWhole.read_unread _ H) y
      iexact Hg
    isplitl [Ho]; · iexact Ho
    isplitl [H0]; · iexact H0
    isplitl [H1]; · iexact H1
    iexists _; iexact H2
  · by_cases hB : t.val < 32
    · have h1 : ¬ k0_cond1 (grid0.coords t) = 1#1 := fun h => hA ((hcond1 t).mp h)
      have h2 : k0_cond2 (grid0.coords t) = 1#1 := (hcond2 t).mpr ⟨by omega, hB⟩
      have h3 : ¬ k0_cond3 (grid0.coords t) = 1#1 := fun h => by have := (hcond3 t).mp h; omega
      rw [Dat.leavesExact_idle (dats m 0 c) 2 t (idleAt0_2 t (by omega)) (noFlush0_2 t (by omega))]
      iintro ⟨⟨⟨%X, %H, %hInv, HW, HH⟩, Hg⟩, Ho, ⟨%d0, H0⟩, ⟨%d1, H1⟩, ⟨%d2, H2⟩⟩
      iapply (run_mid c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
      isplitl [H0]; · iexact H0
      isplitl [H1]; · iexact H1
      isplitl [H2]; · iexact H2
      isplitl [HW]; · iexact HW
      isplitl [HH]; · iexact HH
      iintro ⟨H0, H1, H2, HW, HH⟩
      isplitl [HW HH Hg]
      · isplitl [HW HH]
        · iexists _; iexists _
          isplitr
          swap
          · isplitl [HW]; · iexact HW
            iexact HH
          ipureintro
          have ho3 := hoff3 t (by omega)
          refine inv_mid m c t.val (by omega) hB X H _ hInv ?_ ?_
          · intro y x h0 h1'
            rw [← ld_rowsAt H (k0_off3_inb (grid0.coords t) h2) ((t.val - 8) % 4 * 256) (by omega) ho3]
            exact View.read_writes_cons_rows_of_mem _ _ _ _ [] y x ho3 h0 h1'
          · intro y hy
            rw [View.read_writes_cons_rows_of_not_mem _ _ _ _ [] y ho3 (W := 256) rfl hy, View.writes_nil]
            exact congrFun (Memref.IsWhole.read_unread _ H) y
        iexact Hg
      isplitl [Ho]; · iexact Ho
      isplitl [H0]; · iexact H0
      isplitl [H1]; · iexact H1
      iexists _; iexact H2
    · have h32 : t.val = 32 := by omega
      have h1 : ¬ k0_cond1 (grid0.coords t) = 1#1 := fun h => hA ((hcond1 t).mp h)
      have h2 : ¬ k0_cond2 (grid0.coords t) = 1#1 := fun h => hB ((hcond2 t).mp h).2
      have h3 : k0_cond3 (grid0.coords t) = 1#1 := (hcond3 t).mpr h32
      rw [show (dats m 0 c).leavesExact 2 t = owns (c : Thread nD τ) (ms0_2 t) fullShare ((dats m 0 c).after 2 t) from by
        unfold Dat.leavesExact; rw [liveAt0_2 t h32], after0_2]
      iintro ⟨⟨⟨%X, %H, %hInv, HW, HH⟩, Hg⟩, Ho, ⟨%d0, H0⟩, ⟨%d1, H1⟩, ⟨%d2, H2⟩⟩
      iapply (run_last c (grid0.coords t) (ms0_0 t) (hs0_0 t) (ms0_1 t) (hs0_1 t) (ms0_2 t) (hs0_2 t) scW (Memref.isWhole_whole _) scH (Memref.isWhole_whole _) h1 h2 h3 (iblk m c 0 t) (iblk m c 1 t) _ X H Set.univ _)
      isplitl [H0]; · iexact H0
      isplitl [H1]; · iexact H1
      isplitl [H2]; · iexact H2
      isplitl [HW]; · iexact HW
      isplitl [HH]; · iexact HH
      iintro ⟨H0, H1, H2, HW, HH⟩
      isplitl [HW HH Hg]
      · isplitl [HW HH]
        · iexists _; iexists _
          isplitr
          swap
          · isplitl [HW]; · iexact HW
            iexact HH
          ipureintro
          rw [h32]
          exact inv_end m c X H
        iexact Hg
      isplitl [Ho]; · iexact Ho
      isplitl [H0]; · iexact H0
      isplitl [H1]; · iexact H1
      have hres : ∀ x3 : Vec F S1024x128 .f32, (ms0_2 t).view.read (Elt F) ((ms0_2 t).view.writes (Elt F) ((hs0_2 t).unread x3)
          [⟨Rect.unit ![0, 0] S1024x128.size inb_S1024x128_S1024x128_0_0,
            k0_pay5 H (View.ld X (Rect.unit ![3968, 0] S128x4096.size inb_S4096x4096_S128x4096_3968_0))⟩]) = result m c := by
        intro x3
        rw [read_stored_whole (F := F) (hs0_2 t) _ (funext fun a => by fin_cases a <;> rfl) inb_S1024x128_S1024x128_0_0]
        obtain ⟨eX, eH⟩ := inv_last m c X H (h32 ▸ hInv)
        rw [ld_lastRows, eX, eH]; rfl
      rw [hres]
      iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%X, HW⟩, ⟨%H, HH⟩⟩, Hg⟩
  isplitl [HW HH]
  · iexists X; iexists H
    isplitr
    · ipureintro; exact inv_zero m c X H
    isplitl [HW]; · iexact HW
    iexact HH
  iexact Hg

/-- After the last point the invariant gives the kept buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨⟨%X, %H, %hInv, HW, HH⟩, Hg⟩
  isplitl [HW HH]
  · isplitl [HW]
    · iexists _; iexact HW
    iexists _; iexact HH
  iexact Hg

set_option backward.isDefEq.respectTransparency.types false in
/-- Every weakly fair execution of @main terminates, every array of the pipeline ending at what the library computes
    from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.Ideal.Final.lean ====
/-
  The result array after the run. The result's window has one block, the whole [1024, 128] array, written back once,
  after the last point; what that point leaves in the staging buffer is the named result, so the array ends holding it.
  The argument arrays are staged or bypassed and never written, so they end as launched.
-/
import proofs.«134139_g10737418240768_week1_w2_1022_16_alg».proof.Proof.Ideal.Region
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window's block index is 0 on both axes at every point. -/
theorem idx_res : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- What a point writes back is the named result, read through the (whole) block. -/
theorem flushed_res (c : Dev nD) (t : Fin cfg0.N) :
    (dats m 0 c).flushed 2 t = ((cfg0.win 2).blk t).view.read (Elt F) (result m c) := by
  show (cfg0.win 2).cut (grid0.coords t) ((dats m 0 c).after 2 t) = _
  rw [after0_2]
  obtain ⟨e0, e1⟩ := idx_res t
  funext j
  show result m c j = result m c (((cfg0.win 2).blk t).view.emb j)
  congr 1
  funext a; apply Fin.ext
  match a with
  | ⟨0, _⟩ => show (j 0).val = win0_2.index t (0 : Fin 2) * 1024 + 1 * (j 0).val; omega
  | ⟨1, _⟩ => show (j 1).val = win0_2.index t (1 : Fin 2) * 128 + 1 * (j 1).val; omega

/-- An index of the array is in point t's block iff each coordinate is in the block's range. -/
theorem mem_blk_res (t : Fin cfg0.N) (i : S1024x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v1).slice (win0_2.rect t)).set ↔ _
  rw [View.set_slice_whole, Rect.mem_set_unit]
  exact Iff.rfl

/-- The array after the run is the named result. -/
theorem final_res (c : Dev nD) : (dats m 0 c).arrAt 2 cfg0.N = result m c := by
  refine (dats m 0 c).arrAt_eq_of_cover 2 (result m c) (fun t _ => flushed_res m c t) (fun i => ?_)
  have hlt : 32 < cfg0.N := lt_of_lt_of_eq (by norm_num) (show (33 : ℕ) = cfg0.N from N_0.symm)
  refine ⟨⟨32, hlt⟩, (flush0_2 ⟨32, hlt⟩).mpr rfl, ?_⟩
  rw [mem_blk_res]
  obtain ⟨e0, e1⟩ := idx_res ⟨32, hlt⟩
  intro a
  match a with
  | ⟨0, _⟩ => show win0_2.index ⟨32, hlt⟩ (0 : Fin 2) * 1024 ≤ (i 0).val ∧ (i 0).val < win0_2.index ⟨32, hlt⟩ (0 : Fin 2) * 1024 + 1024; have := idx2_lt0 i; omega
  | ⟨1, _⟩ => show win0_2.index ⟨32, hlt⟩ (1 : Fin 2) * 128 ≤ (i 1).val ∧ (i 1).val < win0_2.index ⟨32, hlt⟩ (1 : Fin 2) * 128 + 128; have := idx2_lt1 i; omega

/-- The run, read: the result array at the named result, the arguments unchanged. -/
theorem run_result : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final_res m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.KernelIdeal.Gen

end
-- ==== Proof.Value.Spec.lean ====
/-
  The function both programs compute, over the extended reals. With σ(x) = 1 / (1 + e⁻ˣ): the first hidden state is
  h₁(b, n) = σ(Σ_{k < 1024} inp(b, k) · W(n, k)); each later one is h_{s+1}(b, n) = σ(Σ_{k < 4096} h_s(b, k) · W(n, k));
  the result is out(b, j) = σ(Σ_{k < 4096} h₇(b, k) · W(3968 + j, k)), the last 128 units of the eighth step.
  A state whose columns from 1024 on are zero contributes nothing there to a row-by-row sum, since 0 · x = 0 for
  every extended real x: the sum over 4096 columns is the sum over the first 1024.
-/
import Idealize.ShloMosaic.PureOps.Ideal
import Idealize.ShloMosaic.Lib.ValueIdx

noncomputable section

open scoped BigOperators

namespace Cert.Recurrence

open Idealize.ShloMosaic Idealize.ShloMosaic.ValueIdx

abbrev Inp := (⟨2, ![1024, 1024]⟩ : Shape).Idx → EReal
abbrev Wt := (⟨2, ![4096, 4096]⟩ : Shape).Idx → EReal
abbrev Hid := (⟨2, ![1024, 4096]⟩ : Shape).Idx → EReal
abbrev Out := (⟨2, ![1024, 128]⟩ : Shape).Idx → EReal

/-- Step one, from the 1024 input columns. -/
def first (inp : Inp) (W : Wt) : Hid := fun y =>
  Ideal.logistic (∑ k : Fin 1024, inp (ix2 (y 0) k) * W (ix2 (y 1) (Fin.castLE (by norm_num : 1024 ≤ 4096) k)))

/-- One more step. -/
def next (W : Wt) (h : Hid) : Hid := fun y =>
  Ideal.logistic (∑ k : Fin 4096, h (ix2 (y 0) k) * W (ix2 (y 1) k))

/-- The hidden state after step s + 1. -/
def steps (inp : Inp) (W : Wt) : ℕ → Hid
  | 0 => first inp W
  | s + 1 => next W (steps inp W s)

/-- The result: the last 128 units of step eight. -/
def out (inp : Inp) (W : Wt) : Out := fun y =>
  Ideal.logistic (∑ k : Fin 4096, steps inp W 6 (ix2 (y 0) k)
    * W (ix2 (⟨3968 + (y 1).val, by have := idx2_lt1 y; omega⟩ : Fin 4096) k))

/-- The input placed in the first 1024 columns of a zero state. -/
def padded (inp : Inp) : Hid := fun y =>
  if h : (y 1).val < 1024 then inp (ix2 (y 0) (⟨(y 1).val, h⟩ : Fin 1024)) else 0

/-- A row-by-row sum against the padded input only sees the first 1024 columns. -/
theorem sum_padded (inp : Inp) (W : Wt) (p : Fin 1024) (q : Fin 4096) :
    ∑ k : Fin 4096, padded inp (ix2 p k) * W (ix2 q k)
      = ∑ k : Fin 1024, inp (ix2 p k) * W (ix2 q (Fin.castLE (by norm_num : 1024 ≤ 4096) k)) := by
  show ∑ k : Fin (1024 + 3072), padded inp (ix2 p k) * W (ix2 q k) = _
  rw [Fin.sum_univ_add]
  have h2 : ∑ k : Fin 3072, padded inp (ix2 p (Fin.natAdd 1024 k)) * W (ix2 q (Fin.natAdd 1024 k)) = 0 :=
    Finset.sum_eq_zero fun k _ => by
      unfold padded
      rw [dif_neg (by show ¬ (1024 + k.val < 1024); omega), zero_mul]
  rw [h2, add_zero]
  refine Finset.sum_congr rfl fun k _ => ?_
  unfold padded
  rw [dif_pos (by show k.val < 1024; exact k.isLt)]
  rfl

/-- So step one from the padded state, through all 4096 columns, is step one. -/
theorem next_padded (inp : Inp) (W : Wt) : next W (padded inp) = first inp W := by
  funext y
  exact congrArg Ideal.logistic (sum_padded inp W (y 0) (y 1))

end Cert.Recurrence

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Value.Kernel.lean ====
/-
  The kernel's named contents read over the extended reals. There a change of float format is the identity, the matrix
  unit's product into zeros of A against B (contracting the second axis of both) is Σ_k A(p, k) · B(q, k), and the
  logistic is 1 / (1 + e⁻ˣ). The weight window's block at point t < 8 is rows 512·t … of the weight argument, and
  the input window's block is the whole input argument (converted on the host, which changes nothing here). So the kept
  weights are the weight argument, the first hidden state is step one of the recurrence, each later one the next step,
  and the named result is the recurrence's result.
-/
import proofs.«134139_g10737418240768_week1_w2_1022_16_alg».proof.Proof.Ideal.Final
import proofs.«134139_g10737418240768_week1_w2_1022_16_alg».proof.Proof.Value.Spec
import proofs.«134139_g10737418240768_week1_w2_1022_16_alg».proof.Proof.LibMatmulT
import Idealize.ShloMosaic.Lib.StableHlo.Run

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo
open scoped BigOperators

variable (m : (ℓ : Loc nD τ sig) → Buf (Elt Ideal) ℓ)

/-- The two arguments as arrays of extended reals. -/
def inpA (c : Dev nD) : Cert.Recurrence.Inp := m ((c : Thread nD τ).loc main_arg0)
def wA (c : Dev nD) : Cert.Recurrence.Wt := m ((c : Thread nD τ).loc main_arg1)

/-! ## The windows' blocks -/

/-- Below point 8 the weight window's block index is the point's number, on the row axis. -/
theorem idx_w : ∀ t : Fin cfg0.N, t.val < 8 → win0_1.index t (0 : Fin 2) = t.val ∧ win0_1.index t (1 : Fin 2) = 0 :=
  (by decide +kernel : ∀ t : Fin grid0.N, t.val < 8 → win0_1.index t (0 : Fin 2) = t.val ∧ win0_1.index t (1 : Fin 2) = 0)
/-- The input window has one block. -/
theorem idx_x : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The weight block at point t < 8, entry (r, k), is the weight argument at (512·t + r, k). -/
theorem wblk_apply (c : Dev nD) (t : Fin cfg0.N) (ht : t.val < 8) (r : Fin 512) (k : Fin 4096) :
    wblk m c t (ix2 r k) = wA m c (ix2 (⟨t.val * 512 + r.val, by omega⟩ : Fin 4096) k) := by
  obtain ⟨e0, e1⟩ := idx_w t ht
  show V m c main_arg1 (((cfg0.win 1).blk t).view.emb (ix2 r k)) = _
  rw [V_main_arg1]
  show wA m c _ = _
  congr 1
  funext a; apply Fin.ext
  match a with
  | ⟨0, _⟩ => show win0_1.index t (0 : Fin 2) * 512 + 1 * r.val = t.val * 512 + r.val; omega
  | ⟨1, _⟩ => show win0_1.index t (1 : Fin 2) * 4096 + 1 * k.val = k.val; omega

/-- The host's conversion of the input leaves, over the extended reals, the input. -/
theorem V_input (c : Dev nD) : (V m c main_v0 : S1024x1024.Idx → EReal) = inpA m c := by
  have e : @Eq (S1024x1024.Idx → EReal) (V m c main_v0)
      (truncf (F := Ideal) .bf16 (m ((c : Thread nD τ).loc main_arg0) : FVec Ideal S1024x1024 .f32) bitsLt_bf16_f32) := by
    dsimp only [V, hostOps0]; after_results
  exact e.trans rfl

/-- The input block at any point is the input argument. -/
theorem xblk_apply (c : Dev nD) (t : Fin cfg0.N) (p k : Fin 1024) : xblk m c t (ix2 p k) = inpA m c (ix2 p k) := by
  obtain ⟨e0, e1⟩ := idx_x t
  show V m c main_v0 (((cfg0.win 0).blk t).view.emb (ix2 p k)) = _
  rw [← V_input]
  congr 1
  funext a; apply Fin.ext
  match a with
  | ⟨0, _⟩ => show win0_0.index t (0 : Fin 2) * 1024 + 1 * p.val = p.val; omega
  | ⟨1, _⟩ => show win0_0.index t (1 : Fin 2) * 1024 + 1 * k.val = k.val; omega

/-! ## The body's payloads -/

/-- The kept weight rows are the loaded rows. -/
theorem pay2_apply (v : Vec Ideal S512x4096 .f32) (x : S512x4096.Idx) : k0_pay2 (F := Ideal) v x = v x := by
  unfold k0_pay2 k0_pay1
  exact congrFun (shapeCast_self _ _) x

/-- The first step's column block: the logistic of the input's rows against the loaded weight rows' first 1024 columns. -/
theorem pay3_apply (v11 : Vec Ideal S512x4096 .f32) (v18 : Vec Ideal S1024x1024 .bf16) (p : Fin 1024) (q : Fin 512) :
    k0_pay3 (F := Ideal) v11 v18 (ix2 p q)
      = Ideal.logistic (∑ k : Fin 1024, v18 (ix2 p k) * v11 (ix2 q (Fin.castLE (by norm_num : 1024 ≤ 4096) k))) := by
  unfold k0_pay3
  refine (congrFun (shapeCast_self _ _) (ix2 p q)).trans ?_
  show Ideal.logistic (FloatOps.matmul (F := Ideal) _ none _ _ _ (ix2 p q)) = _
  refine congrArg Ideal.logistic ?_
  refine (Idealize.ShloMosaic.MatmulT.matmul_zero_apply (M := 1024) (K := 1024) (N := 512)
    dot_S1024x1024_S512x1024_S1024x512_1_1_0_0_n_n_wf none _ _ p q).trans (Finset.sum_congr rfl fun k _ => ?_)
  congr 1
  · exact congrFun (shapeCast_self _ _) (ix2 p k)
  · exact extractStridedSlice_apply ![0, 0] (k0_pay1 (F := Ideal) v11) slices_S512x4096_o0_0_S512x1024 (ix2 q k)
      (ix2 q (Fin.castLE (by norm_num : 1024 ≤ 4096) k))
      (fun a => by match a with
        | ⟨0, _⟩ => show q.val = 0 + q.val; omega
        | ⟨1, _⟩ => show k.val = 0 + k.val; omega)

/-- A later step's row block: the logistic of the loaded rows against the kept weights. -/
theorem pay4_apply (v15 : Vec Ideal S256x4096 .bf16) (v16 : Vec Ideal S4096x4096 .bf16) (p : Fin 256) (q : Fin 4096) :
    k0_pay4 (F := Ideal) v15 v16 (ix2 p q) = Ideal.logistic (∑ k : Fin 4096, v15 (ix2 p k) * v16 (ix2 q k)) := by
  unfold k0_pay4
  refine (congrFun (shapeCast_self _ _) (ix2 p q)).trans ?_
  show Ideal.logistic (FloatOps.matmul (F := Ideal) _ none _ _ _ (ix2 p q)) = _
  exact congrArg Ideal.logistic (Idealize.ShloMosaic.MatmulT.matmul_zero_apply (M := 256) (K := 4096) (N := 4096)
    dot_S256x4096_S4096x4096_S256x4096_1_1_0_0_n_n_wf none v15 v16 p q)

/-- The last step: the logistic of the hidden state against the last 128 weight rows. -/
theorem pay5_apply (v11 : Vec Ideal S1024x4096 .bf16) (v12 : Vec Ideal S128x4096 .bf16) (p : Fin 1024) (j : Fin 128) :
    k0_pay5 (F := Ideal) v11 v12 (ix2 p j) = Ideal.logistic (∑ k : Fin 4096, v11 (ix2 p k) * v12 (ix2 j k)) := by
  unfold k0_pay5
  show Ideal.logistic (FloatOps.matmul (F := Ideal) _ none _ _ _ (ix2 p j)) = _
  exact congrArg Ideal.logistic (Idealize.ShloMosaic.MatmulT.matmul_zero_apply (M := 1024) (K := 4096) (N := 128)
    dot_S1024x4096_S128x4096_S1024x128_1_1_0_0_n_n_wf none v11 v12 p j)

/-! ## The carried contents are the recurrence -/

/-- The kept weights are the weight argument. -/
theorem Wkept_eq (c : Dev nD) : (Wkept m c : S4096x4096.Idx → EReal) = wA m c := by
  funext y
  obtain ⟨r, k, rfl⟩ : ∃ (r : Fin 4096) (k : Fin 4096), y = ix2 r k := ⟨y 0, y 1, eq_ix2 y⟩
  unfold Wkept
  rw [pay2_apply]
  have hr := r.isLt
  refine (wblk_apply m c (pt (r.val / 512)) (by show r.val / 512 % 33 < 8; omega) _ _).trans ?_
  congr 1
  funext a; apply Fin.ext
  match a with
  | ⟨0, _⟩ => show r.val / 512 % 33 * 512 + r.val % 512 = r.val; omega
  | ⟨1, _⟩ => rfl

/-- The first hidden state is step one. -/
theorem Hfirst_eq (c : Dev nD) : (Hfirst m c : S1024x4096.Idx → EReal) = Cert.Recurrence.first (inpA m c) (wA m c) := by
  funext y
  obtain ⟨p, q, rfl⟩ : ∃ (p : Fin 1024) (q : Fin 4096), y = ix2 p q := ⟨y 0, y 1, eq_ix2 y⟩
  unfold Hfirst Cert.Recurrence.first
  have hq := q.isLt
  refine (pay3_apply _ _ _ _).trans (congrArg Ideal.logistic (Finset.sum_congr rfl fun k _ => ?_))
  congr 1
  · exact xblk_apply m c _ p k
  · refine (wblk_apply m c (pt (q.val / 512)) (by show q.val / 512 % 33 < 8; omega) _ _).trans ?_
    congr 1
    funext a; apply Fin.ext
    match a with
    | ⟨0, _⟩ => show q.val / 512 % 33 * 512 + q.val % 512 = q.val; omega
    | ⟨1, _⟩ => rfl

/-- One more step of the kernel's is one more step of the recurrence. -/
theorem Hnext_eq (W : Vec Ideal S4096x4096 .bf16) (H : Vec Ideal S1024x4096 .bf16) :
    (Hnext W H : S1024x4096.Idx → EReal) = Cert.Recurrence.next W H := by
  funext y
  obtain ⟨p, q, rfl⟩ : ∃ (p : Fin 1024) (q : Fin 4096), y = ix2 p q := ⟨y 0, y 1, eq_ix2 y⟩
  unfold Hnext Cert.Recurrence.next
  have hp := p.isLt
  refine (pay4_apply _ _ _ _).trans (congrArg Ideal.logistic (Finset.sum_congr rfl fun k _ => ?_))
  congr 1
  unfold rowsAt
  congr 1
  funext a; apply Fin.ext
  match a with
  | ⟨0, _⟩ => show (p.val / 256 * 256 + p.val % 256) % 1024 = p.val; omega
  | ⟨1, _⟩ => rfl

/-- The hidden state after step s + 1. -/
theorem Hs_succ (c : Dev nD) (s : ℕ) : Hs m c (s + 1) = Hnext (Wkept m c) (Hs m c s) := rfl

theorem Hs_eq (c : Dev nD) (s : ℕ) : (Hs m c s : S1024x4096.Idx → EReal) = Cert.Recurrence.steps (inpA m c) (wA m c) s := by
  induction s with
  | zero => exact Hfirst_eq m c
  | succ s ih =>
    rw [Hs_succ]
    refine (Hnext_eq _ _).trans ?_
    show Cert.Recurrence.next _ _ = Cert.Recurrence.next (wA m c) (Cert.Recurrence.steps (inpA m c) (wA m c) s)
    rw [Wkept_eq, ih]

/-- The named result is the recurrence's result. -/
theorem result_eq (c : Dev nD) : (result m c : S1024x128.Idx → EReal) = Cert.Recurrence.out (inpA m c) (wA m c) := by
  have h6 := Hs_eq m c 6
  have hW := Wkept_eq m c
  unfold result
  generalize Hs m c 6 = H6 at h6
  generalize Wkept m c = W at hW
  funext y
  obtain ⟨p, j, rfl⟩ : ∃ (p : Fin 1024) (j : Fin 128), y = ix2 p j := ⟨y 0, y 1, eq_ix2 y⟩
  unfold Cert.Recurrence.out
  rw [← h6, ← hW]
  exact (pay5_apply _ _ _ _).trans (congrArg Ideal.logistic (Finset.sum_congr rfl fun k _ => rfl))

end Cert.KernelIdeal.Gen

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«134139_g10737418240768_week1_w2_1022_16_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibScatterSet.lean ====
/-
  A scatter that SETS (its body returns the update) whose targets are all inside the operand and pairwise distinct,
  read at an index.

  The host's scatter folds over the update indices in row-major order; update index j replaces the entry at its
  target g j by the update's entry at j. When every update index has a target inside the operand and distinct update
  indices have distinct targets, no entry is written twice, so the result at g j is the update at j, and an entry that
  is no target keeps the operand's value — whatever the dimension numbers, the shapes and the element type.
-/
import Idealize.ShloMosaic.PureOps.ShapeOps

noncomputable section

namespace Idealize.ShloMosaic.ScatterSet

open Idealize.ShloMosaic

variable {α : Type} {s si u : Shape} {w : Nat}

/-- One step of the fold: update number n written at its target when it has one. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- The fold over any duplicate-free list of update numbers: the listed targets hold their updates, and an entry that is
    the target of no listed update keeps its starting value. -/
theorem foldl_step (d : ScatterDims s si u) (idx : IVec si w) (upd : u.Idx → α) (g : u.Idx → s.Idx)
    (hg : ∀ j, d.resultIdx? j idx = some (g j)) (hinj : Function.Injective g) :
    ∀ (L : List (Fin u.numel)), L.Nodup → ∀ r0 : s.Idx → α,
      (∀ n ∈ L, L.foldl (step d idx upd) r0 (g (u.rowMajor.symm n)) = upd (u.rowMajor.symm n))
      ∧ (∀ i, (∀ n ∈ L, g (u.rowMajor.symm n) ≠ i) → L.foldl (step d idx upd) r0 i = r0 i)
  | [], _, r0 => ⟨fun n hn => absurd hn List.not_mem_nil, fun i _ => rfl⟩
  | n :: L, hnd, r0 => by
    have hnL : n ∉ L := (List.nodup_cons.mp hnd).1
    obtain ⟨iha, ihb⟩ := foldl_step d idx upd g hg hinj L (List.nodup_cons.mp hnd).2 (step d idx upd r0 n)
    have hstep : ∀ i, step d idx upd r0 n i = if i = g (u.rowMajor.symm n) then upd (u.rowMajor.symm n) else r0 i := by
      intro i; unfold step; rw [hg]
    refine ⟨fun n' hn' => ?_, fun i hi => ?_⟩
    · rw [List.foldl_cons]
      rcases List.mem_cons.mp hn' with rfl | hmem
      · rw [ihb _ (fun n'' hn'' he => hnL (by
          have := u.rowMajor.symm.injective (hinj he); exact this ▸ hn'')), hstep, if_pos rfl]
      · exact iha n' hmem
    · rw [List.foldl_cons, ihb i (fun n' hn' => hi n' (List.mem_cons_of_mem _ hn')), hstep,
        if_neg (fun he => hi n List.mem_cons_self he.symm)]

/-- The result at a target is the update there. -/
theorem scatter_target (d : ScatterDims s si u) (x : s.Idx → α) (idx : IVec si w) (upd : u.Idx → α) (g : u.Idx → s.Idx)
    (hg : ∀ j, d.resultIdx? j idx = some (g j)) (hinj : Function.Injective g) (j : u.Idx) :
    Host.scatter d (fun _ b => b) x idx upd (g j) = upd j := by
  rw [scatter_eq_foldl]
  have h := (foldl_step d idx upd g hg hinj (List.finRange u.numel) (List.nodup_finRange _) x).1 (u.rowMajor j) (List.mem_finRange _)
  rwa [Equiv.symm_apply_apply] at h

/-- An entry that is no target keeps the operand's value. -/
theorem scatter_other (d : ScatterDims s si u) (x : s.Idx → α) (idx : IVec si w) (upd : u.Idx → α) (g : u.Idx → s.Idx)
    (hg : ∀ j, d.resultIdx? j idx = some (g j)) (hinj : Function.Injective g) (i : s.Idx) (hi : ∀ j, g j ≠ i) :
    Host.scatter d (fun _ b => b) x idx upd i = x i := by
  rw [scatter_eq_foldl]
  exact (foldl_step d idx upd g hg hinj (List.finRange u.numel) (List.nodup_finRange _) x).2 i (fun n _ => hi _)

end Idealize.ShloMosaic.ScatterSet

end
-- ==== Proof.Value.Reference.lean ====
/-
  The reference's result over the extended reals. The host spells the logistic of an array as 1 / (1 + exp(−x)) with
  the constant 1.0, which is the logistic there; one layer is the logistic of the state's product with the transposed
  weights, whose entry (b, n) is Σ_k h(b, k) · W(n, k): a step of the recurrence. The initial state is the input set
  into columns 0 … 1023 of a zero array by a scatter whose one start index is 0: update (b, k) lands on entry (b, k),
  inside the array and different for different updates, so the state is the zero-padded input, and the first layer is
  step one. Seven layers, one more product, its last 128 columns and a last logistic are the recurrence's result.
-/
import proofs.«134139_g10737418240768_week1_w2_1022_16_alg».proof.Proof.Gen.ReferenceIdeal.Read
import proofs.«134139_g10737418240768_week1_w2_1022_16_alg».proof.Proof.Value.Spec
import proofs.«134139_g10737418240768_week1_w2_1022_16_alg».proof.Proof.LibHostDotPlain
import proofs.«134139_g10737418240768_week1_w2_1022_16_alg».proof.Proof.LibScatterSet
import Idealize.ShloMosaic.Lib.IdealHost
import Idealize.ShloMosaic.Lib.Pipeline.Value

set_option maxRecDepth 16384

noncomputable section

open scoped BigOperators

namespace Cert.ReferenceIdeal.RefValue

open Cert.ReferenceIdeal Cert.ReferenceIdeal.Gen Idealize.ShloMosaic Idealize.ShloMosaic.ValueIdx

/-! ## The logistic as the host spells it -/

/-- 1 / (1 + exp(−x)), entry by entry, with the constant 1.0 broadcast. -/
def hostSigmoid (S : Shape) (hb : S_.BroadcastsInDim S (![] : Fin 0 → Fin S.rank)) (x : FVec Ideal S .f32) : FVec Ideal S .f32 :=
  Host.divf (broadcastInDim S ![] hb (constant S_ .f32 0x3F800000#32))
    (addf (broadcastInDim S ![] hb (constant S_ .f32 0x3F800000#32)) (Host.exp (Host.negf x)))

/-- The broadcast constant is 1 at every entry. -/
theorem one_apply (S : Shape) (hb : S_.BroadcastsInDim S (![] : Fin 0 → Fin S.rank)) (i : S.Idx) :
    broadcastInDim S ![] hb (constant (F := Ideal) S_ .f32 0x3F800000#32) i = (1 : EReal) :=
  (broadcastInDim_apply _ hb _ i (fun a => a.elim0) (fun a => a.elim0)).trans Ideal.ofBits_one_f32

/-- It is the logistic. -/
theorem hostSigmoid_apply (S : Shape) (hb : S_.BroadcastsInDim S (![] : Fin 0 → Fin S.rank)) (x : FVec Ideal S .f32) (i : S.Idx) :
    hostSigmoid S hb x i = Ideal.logistic (x i) := by
  show FloatOps.hostDivf (F := Ideal) (broadcastInDim S ![] hb (constant (F := Ideal) S_ .f32 0x3F800000#32) i)
    (FloatOps.addf (broadcastInDim S ![] hb (constant (F := Ideal) S_ .f32 0x3F800000#32) i) (FloatOps.hostUnary .exp (FloatOps.hostNegf (x i)))) = _
  rw [one_apply]
  rfl

/-! ## One layer -/

/-- The transposed weights at (k, n) are the weights at (n, k). -/
theorem transposed_apply (W : FVec Ideal S4096x4096 .f32) (k n : Fin 4096) :
    transpose S4096x4096 [1, 0] W transposes_S4096x4096_S4096x4096_1_0 (ix2 k n) = W (ix2 n k) :=
  transpose_apply [1, 0] W transposes_S4096x4096_S4096x4096_1_0 (ix2 k n) (ix2 n k) (fun b => match b with
    | ⟨0, _⟩ => rfl
    | ⟨1, _⟩ => rfl)

/-- The product of a state with the transposed weights, at (b, n): Σ_k h(b, k) · W(n, k). -/
theorem product_apply (h : FVec Ideal S1024x4096 .f32) (W : FVec Ideal S4096x4096 .f32) (i : S1024x4096.Idx) :
    Host.dotGeneral (F := Ideal) dot_S1024x4096_S4096x4096_S1024x4096_1_0_0_1_n_n none h
        (transpose S4096x4096 [1, 0] W transposes_S4096x4096_S4096x4096_1_0) i
      = ∑ k : Fin 4096, h (ix2 (i 0) k) * W (ix2 (i 1) k) :=
  (Idealize.ShloMosaic.HostDotPlain.dotGeneral_apply (M := 1024) (K := 4096) (N := 4096) none h
    (transpose S4096x4096 [1, 0] W transposes_S4096x4096_S4096x4096_1_0) i).trans
    (Finset.sum_congr rfl fun k _ => congrArg (h (ix2 (i 0) k) * ·) (transposed_apply W k (i 1)))

/-- A layer as the host computes it. -/
def hostLayer (h : FVec Ideal S1024x4096 .f32) (W : FVec Ideal S4096x4096 .f32) : FVec Ideal S1024x4096 .f32 :=
  hostSigmoid S1024x4096 bcast_S_S1024x4096 (Host.dotGeneral dot_S1024x4096_S4096x4096_S1024x4096_1_0_0_1_n_n none h
    (transpose S4096x4096 [1, 0] W transposes_S4096x4096_S4096x4096_1_0))

/-- It is a step of the recurrence. -/
theorem hostLayer_eq (h : FVec Ideal S1024x4096 .f32) (W : FVec Ideal S4096x4096 .f32) :
    hostLayer h W = Cert.Recurrence.next W h := by
  funext i
  unfold hostLayer Cert.Recurrence.next
  rw [hostSigmoid_apply]
  exact congrArg Ideal.logistic (product_apply h W i)

/-! ## The initial state -/

/-- The input set into the first 1024 columns of a zero array. -/
def hostPadded (x0 : FVec Ideal S1024x1024 .f32) : FVec Ideal S1024x4096 .f32 :=
  Host.scatter scatter_S1024x4096_S1_S1024x1024_01_n_1_0 (fun _ b => b)
    (broadcastInDim S1024x4096 ![] bcast_S_S1024x4096 (constant S_ .f32 0x00000000#32))
    (broadcastInDim S1 ![] bcast_S_S1 (constantI S_ 32 0#32)) x0

/-- Where update (b, k) lands: entry (b, k). -/
def target (j : S1024x1024.Idx) : S1024x4096.Idx :=
  ix2 (⟨(j 0).val, idx2_lt0 j⟩ : Fin 1024) (⟨(j 1).val, by have := idx2_lt1 j; omega⟩ : Fin 4096)

theorem target_inj : Function.Injective target := fun j j' h => by
  funext a; apply Fin.ext
  match a with
  | ⟨0, _⟩ => exact congrArg (fun y : S1024x4096.Idx => (y 0).val) h
  | ⟨1, _⟩ => exact congrArg (fun y : S1024x4096.Idx => (y 1).val) h

/-- The one start index is 0. -/
theorem start_index (k : S1.Idx) : broadcastInDim S1 ![] bcast_S_S1 (constantI S_ 32 0#32) k = 0#32 :=
  broadcastInDim_apply _ bcast_S_S1 _ k (fun a => a.elim0) (fun a => a.elim0)

/-- Every update has its target, inside the array. -/
theorem target_spec (j : S1024x1024.Idx) :
    scatter_S1024x4096_S1_S1024x1024_01_n_1_0.resultIdx? j (broadcastInDim S1 ![] bcast_S_S1 (constantI S_ 32 0#32)) = some (target j) := by
  have hs1 : scatter_S1024x4096_S1_S1024x1024_01_n_1_0.start j (broadcastInDim S1 ![] bcast_S_S1 (constantI S_ 32 0#32)) (1 : Fin 2) = 0 := by
    unfold ScatterDims.start
    rw [dif_pos (by decide), start_index]; rfl
  have hs : ∀ a : Fin 2, scatter_S1024x4096_S1_S1024x1024_01_n_1_0.start j (broadcastInDim S1 ![] bcast_S_S1 (constantI S_ 32 0#32)) a = 0 :=
    Fin.forall_fin_two.mpr ⟨rfl, hs1⟩
  have hw : ∀ a : Fin 2, (scatter_S1024x4096_S1_S1024x1024_01_n_1_0.window j a : ℤ) = ((j a).val : ℤ) := by
    intro a
    match a with
    | ⟨0, _⟩ => rfl
    | ⟨1, _⟩ => rfl
  have h0 := idx2_lt0 j
  have h1 := idx2_lt1 j
  unfold ScatterDims.resultIdx?
  rw [dif_pos (fun a => by
    rw [hs a, hw a]
    match a with
    | ⟨0, _⟩ => exact ⟨by omega, by show (0 : ℤ) + ((j 0).val : ℤ) < ((1024 : ℕ) : ℤ); omega⟩
    | ⟨1, _⟩ => exact ⟨by omega, by show (0 : ℤ) + ((j 1).val : ℤ) < ((4096 : ℕ) : ℤ); omega⟩)]
  refine congrArg some (funext fun a => Fin.ext ?_)
  show (scatter_S1024x4096_S1_S1024x1024_01_n_1_0.start j _ a + (scatter_S1024x4096_S1_S1024x1024_01_n_1_0.window j a : ℤ)).toNat = (target j a).val
  rw [hs a, hw a]
  match a with
  | ⟨0, _⟩ => show ((0 : ℤ) + ((j 0).val : ℤ)).toNat = (j 0).val; omega
  | ⟨1, _⟩ => show ((0 : ℤ) + ((j 1).val : ℤ)).toNat = (j 1).val; omega

/-- The initial state is the zero-padded input. -/
theorem hostPadded_eq (x0 : FVec Ideal S1024x1024 .f32) : hostPadded x0 = Cert.Recurrence.padded x0 := by
  funext y
  unfold hostPadded Cert.Recurrence.padded
  by_cases h : (y 1).val < 1024
  · rw [dif_pos h]
    have ey : y = target (ix2 (y 0) (⟨(y 1).val, h⟩ : Fin 1024)) := by
      funext a; apply Fin.ext
      match a with
      | ⟨0, _⟩ => rfl
      | ⟨1, _⟩ => rfl
    conv_lhs => rw [ey]
    exact Idealize.ShloMosaic.ScatterSet.scatter_target _ _ _ x0 target target_spec target_inj _
  · rw [dif_neg h]
    refine (Idealize.ShloMosaic.ScatterSet.scatter_other _ _ _ x0 target target_spec target_inj y (fun j hj => h ?_)).trans ?_
    · have := congrArg (fun z : S1024x4096.Idx => (z 1).val) hj
      have h1 := idx2_lt1 j
      show (y 1).val < 1024
      rw [← show (j 1).val = (y 1).val from this]; exact h1
    · exact (broadcastInDim_apply _ bcast_S_S1024x4096 _ y (fun a => a.elim0) (fun a => a.elim0)).trans Ideal.ofBits_zero_f32

/-! ## The whole reference -/

/-- The reference's term: seven layers from the initial state, one more product, its last 128 columns, a logistic. -/
theorem term_eq (x0 : FVec Ideal S1024x1024 .f32) (x1 : FVec Ideal S4096x4096 .f32) :
    Cert.ReferenceIdeal.Read.val_main_v67 (F := Ideal) x0 x1
      = hostSigmoid S1024x128 bcast_S_S1024x128 (extractStridedSlice S1024x128 ![0, 3968]
          (Host.dotGeneral dot_S1024x4096_S4096x4096_S1024x4096_1_0_0_1_n_n none
            (hostLayer (hostLayer (hostLayer (hostLayer (hostLayer (hostLayer (hostLayer (hostPadded x0) x1) x1) x1) x1) x1) x1) x1)
            (transpose S4096x4096 [1, 0] x1 transposes_S4096x4096_S4096x4096_1_0)) slices_S1024x4096_S1024x128_0_3968) := rfl

/-- The reference's result is the recurrence's. -/
theorem result_eq (x0 : FVec Ideal S1024x1024 .f32) (x1 : FVec Ideal S4096x4096 .f32) :
    Cert.ReferenceIdeal.Read.val_main_v67 (F := Ideal) x0 x1 = Cert.Recurrence.out x0 x1 := by
  rw [term_eq]
  simp only [hostLayer_eq, hostPadded_eq, Cert.Recurrence.next_padded]
  funext y
  rw [hostSigmoid_apply]
  unfold Cert.Recurrence.out
  refine congrArg Ideal.logistic ?_
  refine (extractStridedSlice_apply ![0, 3968] _ slices_S1024x4096_S1024x128_0_3968 y
    (ix2 (⟨(y 0).val, idx2_lt0 y⟩ : Fin 1024) (⟨3968 + (y 1).val, by have := idx2_lt1 y; omega⟩ : Fin 4096))
    (fun a => by match a with
      | ⟨0, _⟩ => show (y 0).val = 0 + (y 0).val; omega
      | ⟨1, _⟩ => rfl)).trans ?_
  exact product_apply _ x1 _

end Cert.ReferenceIdeal.RefValue

end
-- ==== Proof.lean ====
/-
  A recurrent dense layer: eight times, the hidden state becomes the logistic of its product with the transposed
  weight matrix, starting from the input placed in the first 1024 of 4096 columns; the result is the last 128 columns
  of the eighth state. The kernel computes it over a grid of 33 points with two buffers kept between points: at the
  first eight points it keeps the weight matrix (512 rows per point) and computes the first state 512 columns per
  point, using only the 1024 columns of the weights that meet the input; at the next 24 points it replaces the state
  in place, 256 rows at a time (a block of rows of the next state depends only on the same rows of the current one),
  six steps of four blocks; at the last point it computes the 128 result columns from the last 128 weight rows.

  Over the extended reals the two programs agree entry by entry without any assumption on the inputs: a change of
  float format is the identity, the logistic is 1 / (1 + e⁻ˣ) on both sides, both matrix products are the same
  row-by-row sums, and the zero columns of the padded input contribute 0 · x = 0 to the first product.

  The frames of both kernel programs are one argument, made for any float instance: the invariant before a point
  owns the two kept buffers at some contents of which the rows and columns written so far are the named ones.
  The reference's frame is its run with the result dropped. The idealization rewrote nothing.
-/
import proofs.«134139_g10737418240768_week1_w2_1022_16_alg».proof.Defs
import proofs.«134139_g10737418240768_week1_w2_1022_16_alg».proof.Proof.Gen.Kernel
import proofs.«134139_g10737418240768_week1_w2_1022_16_alg».proof.Proof.Gen.KernelIdeal
import proofs.«134139_g10737418240768_week1_w2_1022_16_alg».proof.Proof.Gen.ReferenceIdeal
import proofs.«134139_g10737418240768_week1_w2_1022_16_alg».proof.Proof.Gen.Pre_finite_inputs
import proofs.«134139_g10737418240768_week1_w2_1022_16_alg».proof.Proof.Word.Region
import proofs.«134139_g10737418240768_week1_w2_1022_16_alg».proof.Proof.Value.Kernel
import proofs.«134139_g10737418240768_week1_w2_1022_16_alg».proof.Proof.Value.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame (F := Bits) m ρ

/-- So does its idealization. -/
theorem frame_kernelIdeal : Cert.frame_KernelIdeal := fun m ρ _ => Cert.KernelIdeal.Gen.frame (F := Ideal) m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the recurrence's result of the arguments. -/
theorem algebraic : Cert.algebraic_KernelIdeal_ReferenceIdeal := by
  intro m ρ m' ρ' _ hagree
  refine ⟨fun c => Cert.KernelIdeal.Gen.result m c, Cert.KernelIdeal.Gen.run_result (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v67_eq _ _).trans ((Cert.ReferenceIdeal.RefValue.result_eq _ _).trans ?_)
  rw [(hagree c).1, (hagree c).2]
  exact (Cert.KernelIdeal.Gen.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
